-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000 : Shape := ⟨1, ![100000]⟩
abbrev S100000x172 : Shape := ⟨2, ![100000, 172]⟩
abbrev S100000x100 : Shape := ⟨2, ![100000, 100]⟩
abbrev S528x128 : Shape := ⟨2, ![528, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x172 : S_.BroadcastsInDim S100000x172 (![] : Fin 0 → Fin S100000x172.rank)
  reducesTo_S100000x172_S_d0_1 : S100000x172.ReducesTo [0, 1] S_
  bcast_S_S100000x100 : S_.BroadcastsInDim S100000x100 (![] : Fin 0 → Fin S100000x100.rank)
  reducesTo_S100000x100_S_d0_1 : S100000x100.ReducesTo [0, 1] S_
  bcast_S_S528x128 : S_.BroadcastsInDim S528x128 (![] : Fin 0 → Fin S528x128.rank)
  reducesTo_S528x128_S_d0_1 : S528x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x128 .f32) (main_arg12 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) (main_v13 : IVec S_ 1) (main_v16 : IVec S528x128 1) : IVec S_ 1 :=
  let main_c_5 : IVec S_ 1 := constantI S_ 1 1#1
  let main_v17 : IVec S_ 1 := (fun x v => Host.reduce IntOp.andi x v reducesTo_S528x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x128 .f32) (main_arg1 : IVec S100000 32) (main_arg2 : IVec S100000 32) (main_arg3 : FVec F S100000x172 .f32) (main_arg4 : FVec F S100000x100 .f32) (main_arg5 : FVec F S528x128 .f32) (main_arg6 : FVec F S128 .f32) (main_arg7 : FVec F S128x128 .f32) (main_arg8 : FVec F S128 .f32) (main_arg9 : FVec F S256x128 .f32) (main_arg10 : FVec F S128 .f32) (main_arg11 : FVec F S128x128 .f32) (main_arg12 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x172 .f32 := Host.absf main_arg3
  let main_cst_0 : FVec F S_ .f32 := constant S_ .f32 0x7F800000#32
  let main_v5 : FVec F S100000x172 .f32 := broadcastInDim S100000x172 ![] bcast_S_S100000x172 main_cst_0
  let main_v6 : IVec S100000x172 1 := cmpf .olt main_v4 main_v5
  let main_c_1 : IVec S_ 1 := constantI S_ 1 1#1
  let main_v7 : IVec S_ 1 := (fun x v => Host.reduce IntOp.andi x v reducesTo_S100000x172_S_d0_1 h_S_) main_v6 main_c_1
  let main_v8 : IVec S_ 1 := andi main_v3 main_v7
  let main_v9 : FVec F S100000x100 .f32 := Host.absf main_arg4
  let main_cst_2 : FVec F S_ .f32 := constant S_ .f32 0x7F800000#32
  let main_v10 : FVec F S100000x100 .f32 := broadcastInDim S100000x100 ![] bcast_S_S100000x100 main_cst_2
  let main_v11 : IVec S100000x100 1 := cmpf .olt main_v9 main_v10
  let main_c_3 : IVec S_ 1 := constantI S_ 1 1#1
  let main_v12 : IVec S_ 1 := (fun x v => Host.reduce IntOp.andi x v reducesTo_S100000x100_S_d0_1 h_S_) main_v11 main_c_3
  let main_v13 : IVec S_ 1 := andi main_v8 main_v12
  let main_v14 : FVec F S528x128 .f32 := Host.absf main_arg5
  let main_cst_4 : FVec F S_ .f32 := constant S_ .f32 0x7F800000#32
  let main_v15 : FVec F S528x128 .f32 := broadcastInDim S528x128 ![] bcast_S_S528x128 main_cst_4
  let main_v16 : IVec S528x128 1 := cmpf .olt main_v14 main_v15
  fn_part1 (F := F) main_arg6 main_arg7 main_arg8 main_arg9 main_arg10 main_arg11 main_arg12 main_v13 main_v16
-- ==== Kernel.lean ====
abbrev S200000x128 : Shape := ⟨2, ![200000, 128]⟩
abbrev S100000 : Shape := ⟨1, ![100000]⟩
abbrev S100000x172 : Shape := ⟨2, ![100000, 172]⟩
abbrev S100000x100 : Shape := ⟨2, ![100000, 100]⟩
abbrev S528x128 : Shape := ⟨2, ![528, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S100000x1 : Shape := ⟨2, ![100000, 1]⟩
abbrev S100000x128 : Shape := ⟨2, ![100000, 128]⟩
abbrev S172x128 : Shape := ⟨2, ![172, 128]⟩
abbrev S100x128 : Shape := ⟨2, ![100, 128]⟩
abbrev S1x128 : Shape := ⟨2, ![1, 128]⟩
abbrev S4000x128 : Shape := ⟨2, ![4000, 128]⟩
abbrev S4000x172 : Shape := ⟨2, ![4000, 172]⟩
abbrev S4000x100 : Shape := ⟨2, ![4000, 100]⟩
abbrev S8000x128 : Shape := ⟨2, ![8000, 128]⟩
abbrev S4000x1x128 : Shape := ⟨3, ![4000, 1, 128]⟩
abbrev S4000x2x128 : Shape := ⟨3, ![4000, 2, 128]⟩
abbrev S100000x2 : Shape := ⟨2, ![100000, 2]⟩
abbrev S200000 : Shape := ⟨1, ![200000]⟩
abbrev S200000x1 : Shape := ⟨2, ![200000, 1]⟩

abbrev nBuf : Space → Nat
  | .hbm => 78
  | .vmem => 22
  | .smem => 0
  | _ => 0

abbrev bufTy : (tb : Table) → Fin (tcTables nBuf tb) → BufTy
  | .hbm, ⟨0, _⟩ => ⟨S200000x128, .f32⟩
  | .hbm, ⟨1, _⟩ => ⟨S100000, .i32⟩
  | .hbm, ⟨2, _⟩ => ⟨S100000, .i32⟩
  | .hbm, ⟨3, _⟩ => ⟨S100000x172, .f32⟩
  | .hbm, ⟨4, _⟩ => ⟨S100000x100, .f32⟩
  | .hbm, ⟨5, _⟩ => ⟨S528x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x128, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x128, .f32⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S172x128, .f32⟩
  | .hbm, ⟨36, _⟩ => ⟨S172x128, .bf16⟩
  | .hbm, ⟨37, _⟩ => ⟨S100x128, .f32⟩
  | .hbm, ⟨38, _⟩ => ⟨S100x128, .bf16⟩
  | .hbm, ⟨39, _⟩ => ⟨S128x128, .bf16⟩
  | .hbm, ⟨40, _⟩ => ⟨S128x128, .f32⟩
  | .hbm, ⟨41, _⟩ => ⟨S128x128, .bf16⟩
  | .hbm, ⟨42, _⟩ => ⟨S128x128, .f32⟩
  | .hbm, ⟨43, _⟩ => ⟨S128x128, .bf16⟩
  | .hbm, ⟨44, _⟩ => ⟨S128x128, .bf16⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S200000x128, .f32⟩
  | .hbm, ⟨50, _⟩ => ⟨S100000x1, .i32⟩
  | .hbm, ⟨51, _⟩ => ⟨S100000x1, .i32⟩
  | .hbm, ⟨52, _⟩ => ⟨S100000x2, .i32⟩
  | .hbm, ⟨53, _⟩ => ⟨S200000, .i32⟩
  | .hbm, ⟨54, _⟩ => ⟨S200000, .i32⟩
  | .hbm, ⟨55, _⟩ => ⟨S_, .i32⟩
  | .hbm, ⟨56, _⟩ => ⟨S200000, .i32⟩
  | .hbm, ⟨57, _⟩ => ⟨S200000x1, .i32⟩
  | .hbm, ⟨58, _⟩ => ⟨S200000, .i32⟩
  | .hbm, ⟨59, _⟩ => ⟨S_, .i32⟩
  | .hbm, ⟨60, _⟩ => ⟨S200000, .i32⟩
  | .hbm, ⟨61, _⟩ => ⟨S200000, .i1⟩
  | .hbm, ⟨62, _⟩ => ⟨S_, .i32⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S_, .i32⟩
  | .hbm, ⟨67, _⟩ => ⟨S200000, .i32⟩
  | .hbm, ⟨68, _⟩ => ⟨S200000, .i1⟩
  | .hbm, ⟨69, _⟩ => ⟨S_, .i32⟩
  | .hbm, ⟨70, _⟩ => ⟨S200000, .i32⟩
  | .hbm, ⟨71, _⟩ => ⟨S200000, .i32⟩
  | .hbm, ⟨72, _⟩ => ⟨S200000, .i32⟩
  | .hbm, ⟨73, _⟩ => ⟨S200000x1, .i32⟩
  | .hbm, ⟨74, _⟩ => ⟨S200000x128, .f32⟩
  | .hbm, ⟨75, _⟩ => ⟨S200000x1, .i1⟩
  | .hbm, ⟨76, _⟩ => ⟨S200000x128, .i1⟩
  | .hbm, ⟨77, _⟩ => ⟨S200000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x172, .f32⟩
  | .local _ .vmem, ⟨5, _⟩ => ⟨S4000x172, .f32⟩
  | .local _ .vmem, ⟨6, _⟩ => ⟨S4000x100, .f32⟩
  | .local _ .vmem, ⟨7, _⟩ => ⟨S4000x100, .f32⟩
  | .local _ .vmem, ⟨8, _⟩ => ⟨S128x128, .bf16⟩
  | .local _ .vmem, ⟨9, _⟩ => ⟨S128x128, .bf16⟩
  | .local _ .vmem, ⟨10, _⟩ => ⟨S172x128, .bf16⟩
  | .local _ .vmem, ⟨11, _⟩ => ⟨S100x128, .bf16⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S8000x128, .f32⟩
  | .local _ .vmem, ⟨21, _⟩ => ⟨S8000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_4 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_call0_v0 : Ref sig .tc := ⟨.hbm, 63, rfl⟩
abbrev main_call0_v1 : Ref sig .tc := ⟨.hbm, 64, rfl⟩
abbrev main_v43 : Ref sig .tc := ⟨.hbm, 65, rfl⟩
abbrev main_c_6 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_v0 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x172 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S172x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S100x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  slices_S528x128_S128x128_0_0 : S528x128.Slices ![0, 0] S128x128
  bitsLt_bf16_f32 : FTy.bits .bf16 < FTy.bits .f32
  slices_S528x128_S128x128_128_0 : S528x128.Slices ![128, 0] S128x128
  slices_S528x128_S172x128_256_0 : S528x128.Slices ![256, 0] S172x128
  slices_S528x128_S100x128_428_0 : S528x128.Slices ![428, 0] S100x128
  slices_S256x128_S128x128_0_0 : S256x128.Slices ![0, 0] S128x128
  slices_S256x128_S128x128_128_0 : S256x128.Slices ![128, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x172_S4000x172_0_0 : ∀ a, (![0, 0] : Fin 2 → Nat) a + S4000x172.size a ≤ S4000x172.size a
  h_S4000x172 : 0 < S4000x172.numel
  inb_S4000x100_S4000x100_0_0 : ∀ a, (![0, 0] : Fin 2 → Nat) a + S4000x100.size a ≤ S4000x100.size a
  h_S4000x100 : 0 < S4000x100.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S172x128_S172x128_0_0 : ∀ a, (![0, 0] : Fin 2 → Nat) a + S172x128.size a ≤ S172x128.size a
  h_S172x128 : 0 < S172x128.numel
  shapeCasts_S172x128_S172x128 : S172x128.ShapeCasts S172x128
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S4000x128_S4000x1x128 : S4000x128.ShapeCasts S4000x1x128
  concatenates_S4000x1x128_S4000x1x128_S4000x2x128_d1 : Shape.Concatenates [S4000x1x128, S4000x1x128] S4000x2x128 1
  shapeCasts_S4000x2x128_S8000x128 : S4000x2x128.ShapeCasts S8000x128
  inb_S8000x128_S8000x128_0_0 : ∀ a, (![0, 0] : Fin 2 → Nat) a + S8000x128.size a ≤ S8000x128.size a
  h_S8000x128 : 0 < S8000x128.numel
  concatenates_S100000x1_S100000x1_S100000x2_d1 : Shape.Concatenates [S100000x1, S100000x1] S100000x2 1
  shapeCasts_S100000x2_S200000 : S100000x2.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  gather_S200000x128_S100000x1_S100000x128_1_0_n_n_0_1_1128_wf : GatherDims.WF S200000x128 S100000x1 S100000x128 [1] [0] [] [0] [] 1 ![1, 128]
  dot_S4000x128_S128x128_S4000x128_1_0_0_1_n_n_wf : DotDims.WF S4000x128 S128x128 S4000x128 [1] [0] [0] [1] [] []
  dot_S4000x172_S172x128_S4000x128_1_0_0_1_n_n_wf : DotDims.WF S4000x172 S172x128 S4000x128 [1] [0] [0] [1] [] []
  dot_S4000x100_S100x128_S4000x128_1_0_0_1_n_n_wf : DotDims.WF S4000x100 S100x128 S4000x128 [1] [0] [0] [1] [] []
  scatter_S200000_S200000x1_S200000_n_0_0_1_wf : ScatterDims.WF S200000 S200000x1 S200000 [] [0] [0] 1
  gather_S200000x128_S200000x1_S200000x128_1_0_n_n_0_1_1128_wf : GatherDims.WF S200000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x172.size a ≤ S100000x172.size a
  hwx0_2 : ∀ i : grid0.Coords, EltTy.bits .f32 = 32 ∨ (Rect.block (s := S100000x172) S4000x172.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x100.size a ≤ S100000x100.size a
  hwx0_3 : ∀ i : grid0.Coords, EltTy.bits .f32 = 32 ∨ (Rect.block (s := S100000x100) S4000x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S172x128.size a ≤ S172x128.size a
  hwx0_6 : ∀ i : grid0.Coords, EltTy.bits .bf16 = 32 ∨ (Rect.block (s := S172x128) S172x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S100x128.size a ≤ S100x128.size a
  hwx0_7 : ∀ i : grid0.Coords, EltTy.bits .bf16 = 32 ∨ (Rect.block (s := S100x128) S100x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .bf16 = 32 ∨ (Rect.block (s := S128x128) S128x128.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x128.size a ≤ S1x128.size a
  hwx0_15 : ∀ i : grid0.Coords, EltTy.bits .f32 = 32 ∨ (Rect.block (s := S1x128) S1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8000x128.size a ≤ S200000x128.size a
  hwx0_16 : ∀ i : grid0.Coords, EltTy.bits .f32 = 32 ∨ (Rect.block (s := S200000x128) S8000x128.size (cc0_transform_16 i) (hinb0_16 i)).WholeWords (EltTy.packing .f32)

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x172_S172x128_S4000x128_1_0_0_1_n_n : DotDims S4000x172 S172x128 S4000x128 where
  lhsContracting := [1]
  rhsContracting := [0]
  lhsNonContracting := [0]
  rhsNonContracting := [1]
  lhsBatch := []
  rhsBatch := []
  wf := dot_S4000x172_S172x128_S4000x128_1_0_0_1_n_n_wf
def dot_S4000x100_S100x128_S4000x128_1_0_0_1_n_n : DotDims S4000x100 S100x128 S4000x128 where
  lhsContracting := [1]
  rhsContracting := [0]
  lhsNonContracting := [0]
  rhsNonContracting := [1]
  lhsBatch := []
  rhsBatch := []
  wf := dot_S4000x100_S100x128_S4000x128_1_0_0_1_n_n_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf

abbrev win0_0 : Pipeline.Window sig grid0 :=
  Pipeline.Window.ofSpec (Memref.whole main_v6) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x172.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4000x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S172x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S100x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v29) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v24) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v27) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v31) S1x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v32) S8000x128.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S200000x128 : Shape := ⟨2, ![200000, 128]⟩
abbrev S100000 : Shape := ⟨1, ![100000]⟩
abbrev S100000x172 : Shape := ⟨2, ![100000, 172]⟩
abbrev S100000x100 : Shape := ⟨2, ![100000, 100]⟩
abbrev S528x128 : Shape := ⟨2, ![528, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S100000x1 : Shape := ⟨2, ![100000, 1]⟩
abbrev S100000x128 : Shape := ⟨2, ![100000, 128]⟩
abbrev S100000x528 : Shape := ⟨2, ![100000, 528]⟩
abbrev S1x128 : Shape := ⟨2, ![1, 128]⟩
abbrev S100000x256 : Shape := ⟨2, ![100000, 256]⟩
abbrev S100000x1x128 : Shape := ⟨3, ![100000, 1, 128]⟩
abbrev S100000x2x128 : Shape := ⟨3, ![100000, 2, 128]⟩
abbrev S100000x2 : Shape := ⟨2, ![100000, 2]⟩
abbrev S200000 : Shape := ⟨1, ![200000]⟩
abbrev S200000x1 : Shape := ⟨2, ![200000, 1]⟩

abbrev nBuf : Space → Nat
  | .hbm => 99
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S100000, .i32⟩
  | .hbm, ⟨2, _⟩ => ⟨S100000, .i32⟩
  | .hbm, ⟨3, _⟩ => ⟨S100000x172, .f32⟩
  | .hbm, ⟨4, _⟩ => ⟨S100000x100, .f32⟩
  | .hbm, ⟨5, _⟩ => ⟨S528x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S100000x128, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x128, .f32⟩
  | .hbm, ⟨31, _⟩ => ⟨S100000x528, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x256, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S100000x256, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x1x128, .f32⟩
  | .hbm, ⟨68, _⟩ => ⟨S100000x1x128, .f32⟩
  | .hbm, ⟨69, _⟩ => ⟨S100000x2x128, .f32⟩
  | .hbm, ⟨70, _⟩ => ⟨S200000x128, .f32⟩
  | .hbm, ⟨71, _⟩ => ⟨S100000x1, .i32⟩
  | .hbm, ⟨72, _⟩ => ⟨S100000x1, .i32⟩
  | .hbm, ⟨73, _⟩ => ⟨S100000x2, .i32⟩
  | .hbm, ⟨74, _⟩ => ⟨S200000, .i32⟩
  | .hbm, ⟨75, _⟩ => ⟨S200000, .i32⟩
  | .hbm, ⟨76, _⟩ => ⟨S_, .i32⟩
  | .hbm, ⟨77, _⟩ => ⟨S200000, .i32⟩
  | .hbm, ⟨78, _⟩ => ⟨S200000x1, .i32⟩
  | .hbm, ⟨79, _⟩ => ⟨S200000, .i32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S_, .i32⟩
  | .hbm, ⟨85, _⟩ => ⟨S200000, .i32⟩
  | .hbm, ⟨86, _⟩ => ⟨S200000, .i32⟩
  | .hbm, ⟨87, _⟩ => ⟨S_, .i32⟩
  | .hbm, ⟨88, _⟩ => ⟨S200000, .i32⟩
  | .hbm, ⟨89, _⟩ => ⟨S200000, .i1⟩
  | .hbm, ⟨90, _⟩ => ⟨S_, .i32⟩
  | .hbm, ⟨91, _⟩ => ⟨S200000, .i32⟩
  | .hbm, ⟨92, _⟩ => ⟨S200000, .i32⟩
  | .hbm, ⟨93, _⟩ => ⟨S200000, .i32⟩
  | .hbm, ⟨94, _⟩ => ⟨S200000x1, .i32⟩
  | .hbm, ⟨95, _⟩ => ⟨S200000x128, .f32⟩
  | .hbm, ⟨96, _⟩ => ⟨S200000x1, .i1⟩
  | .hbm, ⟨97, _⟩ => ⟨S200000x128, .i1⟩
  | .hbm, ⟨98, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call1_cst : Ref sig .tc := ⟨.hbm, 48, rfl⟩
abbrev main_call1_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call2_cst : Ref sig .tc := ⟨.hbm, 60, rfl⟩
abbrev main_call2_v0 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_3 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_4 : Ref sig .tc := ⟨.hbm, 80, rfl⟩
abbrev main_v56 : Ref sig .tc := ⟨.hbm, 81, rfl⟩
abbrev main_v57 : Ref sig .tc := ⟨.hbm, 82, rfl⟩
abbrev main_c_5 : Ref sig .tc := ⟨.hbm, 83, rfl⟩
abbrev main_call3_v0 : Ref sig .tc := ⟨.hbm, 84, rfl⟩
abbrev main_call3_v1 : Ref sig .tc := ⟨.hbm, 85, rfl⟩
abbrev main_v58 : Ref sig .tc := ⟨.hbm, 86, rfl⟩
abbrev main_c_6 : Ref sig .tc := ⟨.hbm, 87, rfl⟩
abbrev main_v59 : Ref sig .tc := ⟨.hbm, 88, rfl⟩
abbrev main_v60 : Ref sig .tc := ⟨.hbm, 89, rfl⟩
abbrev main_c_7 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call4_v0 : Ref sig .tc := ⟨.hbm, 97, rfl⟩
abbrev main_v67 : Ref sig .tc := ⟨.hbm, 98, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  concatenates_S100000x128_S100000x128_S100000x172_S100000x100_S100000x528_d1 : Shape.Concatenates [S100000x128, S100000x128, S100000x172, S100000x100] S100000x528 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S100000x128_S100000x1x128_0_2 : S100000x128.BroadcastsInDim S100000x1x128 (![0, 2] : Fin 2 → Fin S100000x1x128.rank)
  concatenates_S100000x1x128_S100000x1x128_S100000x2x128_d1 : Shape.Concatenates [S100000x1x128, S100000x1x128] S100000x2x128 1
  shapeCasts_S100000x2x128_S200000x128 : S100000x2x128.ShapeCasts S200000x128
  concatenates_S100000x1_S100000x1_S100000x2_d1 : Shape.Concatenates [S100000x1, S100000x1] S100000x2 1
  shapeCasts_S100000x2_S200000 : S100000x2.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  gather_S200000x128_S100000x1_S100000x128_1_0_n_n_0_1_1128_wf : GatherDims.WF S200000x128 S100000x1 S100000x128 [1] [0] [] [0] [] 1 ![1, 128]
  dot_S100000x528_S528x128_S100000x128_1_0_0_1_n_n_wf : DotDims.WF S100000x528 S528x128 S100000x128 [1] [0] [0] [1] [] []
  dot_S100000x128_S128x128_S100000x128_1_0_0_1_n_n_wf : DotDims.WF S100000x128 S128x128 S100000x128 [1] [0] [0] [1] [] []
  dot_S100000x256_S256x128_S100000x128_1_0_0_1_n_n_wf : DotDims.WF S100000x256 S256x128 S100000x128 [1] [0] [0] [1] [] []
  scatter_S200000_S200000x1_S200000_n_0_0_1_wf : ScatterDims.WF S200000 S200000x1 S200000 [] [0] [0] 1
  gather_S200000x128_S200000x1_S200000x128_1_0_n_n_0_1_1128_wf : GatherDims.WF S200000x128 S200000x1 S200000x128 [1] [0] [] [0] [] 1 ![1, 128]

variable [Facts₀]

def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S100000x528_S528x128_S100000x128_1_0_0_1_n_n : DotDims S100000x528 S528x128 S100000x128 where
  lhsContracting := [1]
  rhsContracting := [0]
  lhsNonContracting := [0]
  rhsNonContracting := [1]
  lhsBatch := []
  rhsBatch := []
  wf := dot_S100000x528_S528x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S200000_S200000x1_S200000_n_0_0_1 : ScatterDims S200000 S200000x1 S200000 where
  updateWindowDims := []
  insertedWindowDims := [0]
  scatterDimsToOperandDims := [0]
  indexVectorDim := 1
  wf := scatter_S200000_S200000x1_S200000_n_0_0_1_wf
def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf

class Facts : Prop extends Facts₀ where

variable [Facts]
-- ==== Proof.Mlp.lean ====
/-
  The per-edge arithmetic of the message-passing layer, on the extended reals.

  For an edge with source row `s`, destination row `d`, edge features `ef` and time features `tf`:
  the message network's hidden row is the clamp at zero of  s·A + d·B + ef·C + tf·E + b₁,  where A, B, C, E are the
  four consecutive row blocks (128, 128, 172, 100 rows) of the first weight matrix — the product of the
  concatenated row [s, d, ef, tf] with the whole matrix, split along the contraction; the message is that hidden
  row times the second matrix plus its bias. The update network does the same with two blocks: the clamp at zero of
  x·P + g·Q + b over the endpoint row `x` and the message `g`, then times the last matrix plus its bias.
  The result array interleaves the two endpoints: row 2e is the destination's update of edge e, row 2e+1 the source's.

  The two laws at the end split a sum over a contraction axis into the sums over its consecutive blocks; they hold
  in any commutative additive monoid, so they need no finiteness on the extended reals.
-/
import Idealize.ShloMosaic.Lib.ValueIdx
import Idealize.ShloMosaic.PureOps.Ideal

noncomputable section

namespace Cert.Mlp

open Idealize.ShloMosaic Idealize.ShloMosaic.ValueIdx
open scoped BigOperators

/-- The exact value of the float zero the rectifier clamps at. -/
abbrev z : EReal := Ideal.ofBits .f32 0x00000000#32

/-- The message network's hidden row: four partial products summed left to right, the bias, the clamp. -/
def hid1 (s d : Fin 128 → EReal) (ef : Fin 172 → EReal) (tf : Fin 100 → EReal)
    (A B : Fin 128 → Fin 128 → EReal) (C : Fin 172 → Fin 128 → EReal) (E : Fin 100 → Fin 128 → EReal)
    (b : Fin 128 → EReal) (q : Fin 128) : EReal :=
  max (((((∑ k, s k * A k q) + ∑ k, d k * B k q) + ∑ k, ef k * C k q) + ∑ k, tf k * E k q) + b q) z

/-- An affine layer on a row: row times matrix, plus bias. -/
def lin (x : Fin 128 → EReal) (W : Fin 128 → Fin 128 → EReal) (b : Fin 128 → EReal) (q : Fin 128) : EReal :=
  (∑ k, x k * W k q) + b q

/-- The update network's hidden row: two partial products, the bias, the clamp. -/
def hid2 (x g : Fin 128 → EReal) (P Q : Fin 128 → Fin 128 → EReal) (b : Fin 128 → EReal) (q : Fin 128) : EReal :=
  max (((∑ k, x k * P k q) + ∑ k, g k * Q k q) + b q) z

/-- A matrix and a vector over literal index sets. -/
abbrev Mat (a b : ℕ) := (⟨2, ![a, b]⟩ : Shape).Idx → EReal
abbrev Vec1 (b : ℕ) := (⟨1, ![b]⟩ : Shape).Idx → EReal

/-- Row `e` of a matrix. -/
abbrev row {a b : ℕ} (X : Mat a b) (e : Fin a) : Fin b → EReal := fun k => X (ix2 e k)
/-- A matrix, curried. -/
abbrev cur {a b : ℕ} (W : Mat a b) : Fin a → Fin b → EReal := fun k q => W (ix2 k q)
/-- The `n` rows of a matrix from row `off` on, curried. -/
abbrev blk {a b : ℕ} (W : Mat a b) (off n : ℕ) (h : off + n ≤ a) : Fin n → Fin b → EReal :=
  fun k q => W (ix2 ⟨off + k.val, by have := k.isLt; omega⟩ q)
/-- A vector as a function of its position. -/
abbrev vec {b : ℕ} (v : Vec1 b) : Fin b → EReal := fun q => v (ix1 q)

/-- The message of edge `e`. -/
def message (S D : Mat 100000 128) (EF : Mat 100000 172) (TF : Mat 100000 100) (W1 : Mat 528 128) (b1 : Vec1 128)
    (W2 : Mat 128 128) (b2 : Vec1 128) (e : Fin 100000) : Fin 128 → EReal :=
  lin (hid1 (row S e) (row D e) (row EF e) (row TF e) (blk W1 0 128 (by omega)) (blk W1 128 128 (by omega))
    (blk W1 256 172 (by omega)) (blk W1 428 100 (by omega)) (vec b1)) (cur W2) (vec b2)

/-- The update of the endpoint whose rows are `X`, for edge `e` with message `g`. -/
def update (X : Mat 100000 128) (g : Fin 128 → EReal) (U1 : Mat 256 128) (ub1 : Vec1 128) (U2 : Mat 128 128)
    (ub2 : Vec1 128) (e : Fin 100000) : Fin 128 → EReal :=
  lin (hid2 (row X e) g (blk U1 0 128 (by omega)) (blk U1 128 128 (by omega)) (vec ub1)) (cur U2) (vec ub2)

/-- The interleaved per-edge updates: row 2e the destination's, row 2e+1 the source's. -/
def vals (S D : Mat 100000 128) (EF : Mat 100000 172) (TF : Mat 100000 100) (W1 : Mat 528 128) (b1 : Vec1 128)
    (W2 : Mat 128 128) (b2 : Vec1 128) (U1 : Mat 256 128) (ub1 : Vec1 128) (U2 : Mat 128 128) (ub2 : Vec1 128) :
    Mat 200000 128 := fun i =>
  let e : Fin 100000 := ⟨(i 0).val / 2, by have := idx2_lt0 i; omega⟩
  let g := message S D EF TF W1 b1 W2 b2 e
  if (i 0).val % 2 = 0 then update D g U1 ub1 U2 ub2 e (i 1) else update S g U1 ub1 U2 ub2 e (i 1)

/-- A sum over four consecutive blocks of an index range is the sum of the blocks' sums, left to right. -/
theorem sum_split4 {M : Type*} [AddCommMonoid M] (a1 a2 a3 a4 : ℕ) (f : Fin (a1 + a2 + a3 + a4) → M) :
    ∑ k, f k = (((∑ k : Fin a1, f ⟨k.val, by have := k.isLt; omega⟩)
      + ∑ k : Fin a2, f ⟨a1 + k.val, by have := k.isLt; omega⟩)
      + ∑ k : Fin a3, f ⟨a1 + a2 + k.val, by have := k.isLt; omega⟩)
      + ∑ k : Fin a4, f ⟨a1 + a2 + a3 + k.val, by have := k.isLt; omega⟩ := by
  rw [Fin.sum_univ_add, Fin.sum_univ_add, Fin.sum_univ_add]
  rfl

/-- A sum over two consecutive blocks of an index range is the sum of the two blocks' sums. -/
theorem sum_split2 {M : Type*} [AddCommMonoid M] (a1 a2 : ℕ) (f : Fin (a1 + a2) → M) :
    ∑ k, f k = (∑ k : Fin a1, f ⟨k.val, by have := k.isLt; omega⟩)
      + ∑ k : Fin a2, f ⟨a1 + k.val, by have := k.isLt; omega⟩ := by
  rw [Fin.sum_univ_add]
  rfl

end Cert.Mlp

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.LibInterleave.lean ====
/-
  Two matrices interleaved row by row, read at an index.

  Give each of two `n × b` matrices a unit middle axis, join the two `n × 1 × b` arrays along that axis and read the
  `n × 2 × b` result as a `2n × b` matrix: row `r` of the result is row `r / 2` of the first matrix when `r` is even and
  of the second when `r` is odd — the row-major position `(e · 2 + s) · b + q` of entry `(e, s, q)` is the position
  `(2e + s) · b + q` of entry `(2e + s, q)`. The unit middle axis is added either by a reshape or by a broadcast along
  dimensions `[0, 2]`; both read, at `(e, 0, q)`, the matrix at `(e, q)`. For any element type and any extents.
-/
import Idealize.ShloMosaic.Lib.Pipeline.Value
import Idealize.ShloMosaic.Lib.ValueIdx

noncomputable section

namespace Cert.Lib.Interleave

open Idealize.ShloMosaic Idealize.ShloMosaic.ValueIdx

variable {n b m : Nat} {α : Type}

/-- A matrix reshaped to carry a unit middle axis reads, at `(e, 0, q)`, the matrix at `(e, q)`. -/
theorem castMid_apply (u : (⟨2, ![n, b]⟩ : Shape).Idx → α)
    (h : (⟨2, ![n, b]⟩ : Shape).ShapeCasts ⟨3, ![n, 1, b]⟩) (e : Fin n) (q : Fin b) :
    shapeCast ⟨3, ![n, 1, b]⟩ u h (ix3 e (0 : Fin 1) q) = u (ix2 e q) :=
  shapeCast_apply u h _ _ (by
    rw [Shape.rowMajor_val_two, Shape.rowMajor_val_three]
    show e.val * b + q.val = (e.val * 1 + 0) * b + q.val
    rw [Nat.mul_one, Nat.add_zero])

/-- A matrix broadcast along dimensions `[0, 2]` to carry a unit middle axis reads, at `(e, 0, q)`, the matrix at
    `(e, q)`. -/
theorem dimMid_apply (u : (⟨2, ![n, b]⟩ : Shape).Idx → α)
    (h : (⟨2, ![n, b]⟩ : Shape).BroadcastsInDim ⟨3, ![n, 1, b]⟩ ![0, 2]) (e : Fin n) (q : Fin b) :
    broadcastInDim ⟨3, ![n, 1, b]⟩ ![0, 2] h u (ix3 e (0 : Fin 1) q) = u (ix2 e q) := by
  refine broadcastInDim_apply _ h u (ix3 e (0 : Fin 1) q) (ix2 e q) fun ax => ?_
  match ax with
  | ⟨0, _⟩ =>
    show e.val = if n = 1 then 0 else e.val
    split
    · have := e.isLt; omega
    · rfl
  | ⟨1, _⟩ =>
    show q.val = if b = 1 then 0 else q.val
    split
    · have := q.isLt; omega
    · rfl

/-- The join of two `n × 1 × b` arrays along the middle axis, read as a `2n × b` matrix: an even row reads the first
    array, an odd row the second, at half the row. -/
theorem stack_apply (U V : (⟨3, ![n, 1, b]⟩ : Shape).Idx → α)
    (hc : Shape.Concatenates [(⟨3, ![n, 1, b]⟩ : Shape), ⟨3, ![n, 1, b]⟩] ⟨3, ![n, 2, b]⟩ 1)
    (h2 : (⟨3, ![n, 2, b]⟩ : Shape).ShapeCasts ⟨2, ![m, b]⟩) (hm : m = 2 * n) (r : Fin m) (q : Fin b) :
    shapeCast ⟨2, ![m, b]⟩ (concatenate ⟨3, ![n, 2, b]⟩ 1 [⟨⟨3, ![n, 1, b]⟩, U⟩, ⟨⟨3, ![n, 1, b]⟩, V⟩] hc) h2 (ix2 r q)
      = if r.val % 2 = 0 then U (ix3 ⟨r.val / 2, by have := r.isLt; omega⟩ (0 : Fin 1) q)
        else V (ix3 ⟨r.val / 2, by have := r.isLt; omega⟩ (0 : Fin 1) q) := by
  have hr := r.isLt
  have he : r.val / 2 < n := by omega
  have hs : r.val % 2 < 2 := Nat.mod_lt _ (by omega)
  -- the reshape: entry (r, q) of the matrix is entry (r / 2, r % 2, q) of the joined array
  rw [shapeCast_apply _ h2 (ix2 r q) (ix3 ⟨r.val / 2, he⟩ ⟨r.val % 2, hs⟩ q) (by
    rw [Shape.rowMajor_val_two, Shape.rowMajor_val_three]
    show (r.val / 2 * 2 + r.val % 2) * b + q.val = r.val * b + q.val
    have : r.val / 2 * 2 + r.val % 2 = r.val := by omega
    rw [this])]
  split
  · next h0 =>
    -- slot 0: the first piece
    refine concatenate_pair_apply_left (t := ⟨3, ![n, 2, b]⟩) (1 : Fin 3) U V hc _ rfl (ix3 ⟨r.val / 2, he⟩ (0 : Fin 1) q) fun ax => ?_
    match ax with
    | ⟨0, _⟩ => rfl
    | ⟨1, _⟩ => show (0 : Nat) = r.val % 2; omega
    | ⟨2, _⟩ => rfl
  · next h1 =>
    -- slot 1: the second piece, one past the first piece's extent
    refine concatenate_pair_apply_right (t := ⟨3, ![n, 2, b]⟩) (1 : Fin 3) U V hc _ rfl rfl (ix3 ⟨r.val / 2, he⟩ (0 : Fin 1) q) (fun ax hax => ?_) ?_
    · match ax with
      | ⟨0, _⟩ => rfl
      | ⟨1, _⟩ => exact absurd rfl hax
      | ⟨2, _⟩ => rfl
    · show (0 : Nat) + 1 = r.val % 2
      omega

end Cert.Lib.Interleave

end
-- ==== Proof.KPay.lean ====
/-
  What the kernel body computes, entry by entry.

  The body loads a block of 4000 source rows, the matching 4000 destination rows, edge-feature rows and time-feature
  rows, and the weight blocks and bias rows whole. Each of its matrix products accumulates into a zero splat, so at
  the exact values an entry of a product is the plain sum over the contraction position; a bias row is broadcast down
  the rows; the conversions to the narrower float format are the identity. Read at row `p` and column `k` the hidden
  value of the message network is therefore `Mlp.hid1` of the four loaded rows `p`, and so on down the body.
-/
import proofs.«120662_j70557722738855_2_alg».proof.Proof.Gen.KernelIdeal.Frame
import proofs.«120662_j70557722738855_2_alg».proof.Proof.Mlp
import proofs.«120662_j70557722738855_2_alg».proof.Proof.LibPlainDot
import proofs.«120662_j70557722738855_2_alg».proof.Proof.LibRowBroadcasts
import proofs.«120662_j70557722738855_2_alg».proof.Proof.LibInterleave
import Idealize.ShloMosaic.Lib.ValueIdx
import Idealize.ShloMosaic.Lib.Pipeline.Value

noncomputable section

namespace Cert.KPay

open Idealize.ShloMosaic Idealize.ShloMosaic.ValueIdx
open Cert.KernelIdeal Cert.KernelIdeal.Gen Cert.Mlp
open scoped BigOperators

/-- A bias row `1 × 128` as a function of the column. -/
abbrev brow (v : Vec Ideal S1x128 .f32) : Fin 128 → EReal := fun q => v (ix2 (0 : Fin 1) q)

theorem d128 : dot_S4000x128_S128x128_S4000x128_1_0_0_1_n_n = Cert.Lib.PlainDot.dims dot_S4000x128_S128x128_S4000x128_1_0_0_1_n_n_wf := rfl
theorem d172 : dot_S4000x172_S172x128_S4000x128_1_0_0_1_n_n = Cert.Lib.PlainDot.dims dot_S4000x172_S172x128_S4000x128_1_0_0_1_n_n_wf := rfl
theorem d100 : dot_S4000x100_S100x128_S4000x128_1_0_0_1_n_n = Cert.Lib.PlainDot.dims dot_S4000x100_S100x128_S4000x128_1_0_0_1_n_n_wf := rfl

/-- The message network's hidden block at `(p, k)`: `Mlp.hid1` of the four loaded rows `p`. -/
theorem pay4_apply (x0 x1 : Vec Ideal S4000x128 .f32) (x2 : Vec Ideal S4000x172 .f32) (x3 : Vec Ideal S4000x100 .f32)
    (x4 x5 : Vec Ideal S128x128 .bf16) (x6 : Vec Ideal S172x128 .bf16) (x7 : Vec Ideal S100x128 .bf16)
    (x8 : Vec Ideal S1x128 .f32) (p : Fin 4000) (k : Fin 128) :
    k0_pay4 (F := Ideal) x0 x1 x2 x3 x4 x5 x6 x7 x8 (ix2 p k)
      = hid1 (row x0 p) (row x1 p) (row x2 p) (row x3 p) (cur x4) (cur x5) (cur x6) (cur x7) (brow x8) k := by
  unfold k0_pay4 k0_pay2 k0_pay3 hid1
  rw [d128, d172, d100]
  simp only [truncf_apply, maximumf_apply, addf_apply, broadcast_apply, shapeCast_self,
    Cert.Lib.PlainDot.matmul_zero_apply, Cert.Lib.Rows.bcastRow_apply]
  rfl

/-- The block the body stores, at `(r, q)`: an even row is the first operand's row `r / 2`; an odd row is the last
    affine layer applied to the clamp of the second operand's row `r / 2` plus its bias row. -/
theorem pay1_apply (v60 v67 : FVec Ideal S4000x128 .f32) (x13 : Vec Ideal S1x128 .f32) (x14 : Vec Ideal S128x128 .bf16)
    (x15 : Vec Ideal S1x128 .f32) (r : Fin 8000) (q : Fin 128) :
    k0_pay1 (F := Ideal) v60 v67 x13 x14 x15 (ix2 r q)
      = if r.val % 2 = 0 then v60 (ix2 ⟨r.val / 2, by have := r.isLt; omega⟩ q)
        else lin (fun k => max (v67 (ix2 ⟨r.val / 2, by have := r.isLt; omega⟩ k) + brow x13 k) z) (cur x14) (brow x15) q := by
  unfold k0_pay1
  rw [d128]
  rw [Cert.Lib.Interleave.stack_apply _ _ _ _ (by norm_num : (8000 : Nat) = 2 * 4000) r q]
  split
  · rw [Cert.Lib.Interleave.castMid_apply]
  · rw [Cert.Lib.Interleave.castMid_apply]
    unfold lin
    simp only [truncf_apply, maximumf_apply, addf_apply, broadcast_apply, shapeCast_self,
      Cert.Lib.PlainDot.matmul_zero_apply, Cert.Lib.Rows.bcastRow_apply]
    rfl

/-- The conversions in front of the products are the identity at the exact values. -/
theorem pay2_eq (x : Vec Ideal S4000x128 .f32) : k0_pay2 (F := Ideal) x = x := by
  unfold k0_pay2; rw [shapeCast_self]; rfl
theorem pay3_eq (x : Vec Ideal S4000x128 .f32) : k0_pay3 (F := Ideal) x = x := by
  unfold k0_pay3; rw [shapeCast_self]; rfl
theorem pay5_eq (x : Vec Ideal S128x128 .bf16) : k0_pay5 (F := Ideal) x = x := by
  unfold k0_pay5; rw [shapeCast_self]

/-- The message block at `(p, k)`: the affine layer on row `p` of the hidden block. -/
theorem pay6_apply (v31 : FVec Ideal S4000x128 .bf16) (v33 : FVec Ideal S128x128 .bf16) (x10 : Vec Ideal S1x128 .f32)
    (p : Fin 4000) (k : Fin 128) :
    k0_pay6 (F := Ideal) v31 v33 x10 (ix2 p k) = lin (fun j => v31 (ix2 p j)) (cur v33) (brow x10) k := by
  unfold k0_pay6 lin
  rw [d128]
  simp only [truncf_apply, addf_apply, shapeCast_self, Cert.Lib.PlainDot.matmul_zero_apply, Cert.Lib.Rows.bcastRow_apply]

/-- The first endpoint's update block at `(p, k)`. -/
theorem pay7_apply (v5 v31 : FVec Ideal S4000x128 .bf16) (v33 : FVec Ideal S128x128 .bf16) (x10 : Vec Ideal S1x128 .f32)
    (x11 x12 : Vec Ideal S128x128 .bf16) (x13 : Vec Ideal S1x128 .f32) (x14 : Vec Ideal S128x128 .bf16)
    (x15 : Vec Ideal S1x128 .f32) (p : Fin 4000) (k : Fin 128) :
    k0_pay7 (F := Ideal) v5 v31 v33 x10 x11 x12 x13 x14 x15 (ix2 p k)
      = lin (hid2 (fun j => v5 (ix2 p j)) (fun j => k0_pay6 (F := Ideal) v31 v33 x10 (ix2 p j)) (cur x11) (cur x12) (brow x13))
          (cur x14) (brow x15) k := by
  unfold k0_pay7 lin hid2
  rw [d128]
  simp only [truncf_apply, maximumf_apply, addf_apply, broadcast_apply, shapeCast_self,
    Cert.Lib.PlainDot.matmul_zero_apply, Cert.Lib.Rows.bcastRow_apply]
  rfl

/-- The second endpoint's two partial products at `(p, k)`, before the bias and the clamp. -/
theorem pay8_apply (v2 v31 : FVec Ideal S4000x128 .bf16) (v33 : FVec Ideal S128x128 .bf16) (x10 : Vec Ideal S1x128 .f32)
    (x11 x12 : Vec Ideal S128x128 .bf16) (p : Fin 4000) (k : Fin 128) :
    k0_pay8 (F := Ideal) v2 v31 v33 x10 x11 x12 (ix2 p k)
      = (∑ j, v2 (ix2 p j) * x11 (ix2 j k)) + ∑ j, k0_pay6 (F := Ideal) v31 v33 x10 (ix2 p j) * x12 (ix2 j k) := by
  unfold k0_pay8
  rw [d128]
  simp only [addf_apply, shapeCast_self, Cert.Lib.PlainDot.matmul_zero_apply]

theorem hz : (![0, 0] : Fin 2 → Nat) = fun _ => 0 := funext fun a => by fin_cases a <;> rfl

/-- The message of the block's edge `e`, from the loaded blocks. -/
abbrev msgRow (x0 x1 : Vec Ideal S4000x128 .f32) (x2 : Vec Ideal S4000x172 .f32) (x3 : Vec Ideal S4000x100 .f32)
    (x4 x5 : Vec Ideal S128x128 .bf16) (x6 : Vec Ideal S172x128 .bf16) (x7 : Vec Ideal S100x128 .bf16)
    (x8 : Vec Ideal S1x128 .f32) (x9 : Vec Ideal S128x128 .bf16) (x10 : Vec Ideal S1x128 .f32) (e : Fin 4000) : Fin 128 → EReal :=
  lin (hid1 (row x0 e) (row x1 e) (row x2 e) (row x3 e) (cur x4) (cur x5) (cur x6) (cur x7) (brow x8)) (cur x9) (brow x10)

/-- WHAT THE BODY LEAVES in the output block, at `(r, q)`: row `r` is edge `r / 2` of the block; an even row holds the
    update of the destination rows (the second loaded block), an odd row the update of the source rows (the first),
    both from the same message. -/
theorem out_apply (x0 x1 : Vec Ideal S4000x128 .f32) (x2 : Vec Ideal S4000x172 .f32) (x3 : Vec Ideal S4000x100 .f32)
    (x4 x5 : Vec Ideal S128x128 .bf16) (x6 : Vec Ideal S172x128 .bf16) (x7 : Vec Ideal S100x128 .bf16)
    (x8 : Vec Ideal S1x128 .f32) (x9 : Vec Ideal S128x128 .bf16) (x10 : Vec Ideal S1x128 .f32)
    (x11 x12 : Vec Ideal S128x128 .bf16) (x13 : Vec Ideal S1x128 .f32) (x14 : Vec Ideal S128x128 .bf16)
    (x15 : Vec Ideal S1x128 .f32) (r : Fin 8000) (q : Fin 128) :
    out0_16 (F := Ideal) x0 x1 x2 x3 x4 x5 x6 x7 x8 x9 x10 x11 x12 x13 x14 x15 (ix2 r q)
      = if r.val % 2 = 0 then
          lin (hid2 (row x1 ⟨r.val / 2, by have := r.isLt; omega⟩)
            (msgRow x0 x1 x2 x3 x4 x5 x6 x7 x8 x9 x10 ⟨r.val / 2, by have := r.isLt; omega⟩) (cur x11) (cur x12) (brow x13))
            (cur x14) (brow x15) q
        else
          lin (hid2 (row x0 ⟨r.val / 2, by have := r.isLt; omega⟩)
            (msgRow x0 x1 x2 x3 x4 x5 x6 x7 x8 x9 x10 ⟨r.val / 2, by have := r.isLt; omega⟩) (cur x11) (cur x12) (brow x13))
            (cur x14) (brow x15) q := by
  unfold out0_16
  rw [View.canon_unit_zero hz]
  simp only [View.ld_unit_zero (S := S4000x128) hz, View.ld_unit_zero (S := S4000x172) hz, View.ld_unit_zero (S := S4000x100) hz,
    View.ld_unit_zero (S := S128x128) hz, View.ld_unit_zero (S := S172x128) hz, View.ld_unit_zero (S := S100x128) hz,
    View.ld_unit_zero (S := S1x128) hz]
  rw [pay1_apply]
  split
  · rw [pay7_apply]
    simp only [pay6_apply, pay4_apply, pay3_eq, pay5_eq]
  · unfold hid2
    simp only [pay8_apply, pay6_apply, pay4_apply, pay2_eq, pay5_eq]

end Cert.KPay

end
-- ==== Proof.KBlocks.lean ====
/-
  From the blocks the grid points write back to the whole result array.

  The grid has 25 points. Point `t` stages rows `4000 t … 4000 t + 3999` of the four per-edge operand arrays, the
  weight blocks and bias rows whole, and writes back rows `8000 t … 8000 t + 7999` of the result. Row `r` of an
  output block is edge `r / 2` of the point's 4000 edges, so row `8000 t + r` of the result is edge `4000 t + r / 2`
  of all the edges: what each point writes back is its block of ONE function of the whole arrays, `G` below, and the 25
  blocks tile the result's 200000 rows, so the result array ends holding `G`.
-/
import proofs.«120662_j70557722738855_2_alg».proof.Proof.Gen.KernelIdeal.Frame
import proofs.«120662_j70557722738855_2_alg».proof.Proof.KPay
import Idealize.ShloMosaic.Lib.Pipeline.Value

set_option maxRecDepth 16384

noncomputable section

namespace Cert.KBlocks

open Idealize.ShloMosaic Idealize.ShloMosaic.ValueIdx Idealize.ShloMosaic.TcCoe Idealize.SL.Sem
open Cert.KernelIdeal Cert.KernelIdeal.Gen Cert.Mlp Cert.KPay
open Idealize.ShloMosaic.Pipeline (Dat)

/-- The interleaved updates as one function of the kernel's sixteen operand arrays: the two endpoint row arrays, the
    edge and time features, the four row blocks of the first weight matrix and its bias row, the second matrix and its
    bias row, the two row blocks of the update network's first matrix, its bias row, its last matrix and bias row. -/
def G (s d : Mat 100000 128) (ef : Mat 100000 172) (tf : Mat 100000 100) (A B : Mat 128 128) (C : Mat 172 128)
    (E : Mat 100 128) (b1 : Mat 1 128) (W2 : Mat 128 128) (b2 : Mat 1 128) (P Q : Mat 128 128) (ub1 : Mat 1 128)
    (U2 : Mat 128 128) (ub2 : Mat 1 128) : Mat 200000 128 := fun i =>
  let e : Fin 100000 := ⟨(i 0).val / 2, by have := idx2_lt0 i; omega⟩
  let g := lin (hid1 (row s e) (row d e) (row ef e) (row tf e) (cur A) (cur B) (cur C) (cur E) (brow b1)) (cur W2) (brow b2)
  if (i 0).val % 2 = 0 then lin (hid2 (row d e) g (cur P) (cur Q) (brow ub1)) (cur U2) (brow ub2) (i 1)
  else lin (hid2 (row s e) g (cur P) (cur Q) (brow ub1)) (cur U2) (brow ub2) (i 1)

/-- `G` at row `R`, for the edge `e` that is half of `R`. -/
theorem G_apply (s d : Mat 100000 128) (ef : Mat 100000 172) (tf : Mat 100000 100) (A B : Mat 128 128) (C : Mat 172 128)
    (E : Mat 100 128) (b1 : Mat 1 128) (W2 : Mat 128 128) (b2 : Mat 1 128) (P Q : Mat 128 128) (ub1 : Mat 1 128)
    (U2 : Mat 128 128) (ub2 : Mat 1 128) (R : Fin 200000) (q : Fin 128) (e : Fin 100000) (he : e.val = R.val / 2) :
    G s d ef tf A B C E b1 W2 b2 P Q ub1 U2 ub2 (ix2 R q)
      = if R.val % 2 = 0 then
          lin (hid2 (row d e) (lin (hid1 (row s e) (row d e) (row ef e) (row tf e) (cur A) (cur B) (cur C) (cur E) (brow b1))
            (cur W2) (brow b2)) (cur P) (cur Q) (brow ub1)) (cur U2) (brow ub2) q
        else
          lin (hid2 (row s e) (lin (hid1 (row s e) (row d e) (row ef e) (row tf e) (cur A) (cur B) (cur C) (cur E) (brow b1))
            (cur W2) (brow b2)) (cur P) (cur Q) (brow ub1)) (cur U2) (brow ub2) q := by
  have hb : R.val / 2 < 100000 := by have := R.isLt; omega
  obtain rfl : e = ⟨R.val / 2, hb⟩ := Fin.ext he
  rfl

variable (m : (ℓ : Loc nD τ sig) → Buf (Elt Ideal) ℓ)

/-- `G` of the operand arrays as the region finds them. -/
abbrev KG (c : Dev nD) : Mat 200000 128 := G (V m c main_v6) (V m c main_v13) (V m c main_arg3) (V m c main_arg4) (V m c main_v15) (V m c main_v17) (V m c main_v19) (V m c main_v21) (V m c main_v28) (V m c main_v22) (V m c main_v29) (V m c main_v24) (V m c main_v26) (V m c main_v30) (V m c main_v27) (V m c main_v31)

theorem tlt (t : Fin cfg0.N) : t.val < 25 := t.isLt

/-- The printed index maps, decided over the grid: the four per-edge windows and the result window move one block down
    per point; every other window stays at block 0. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = t.val ∧ win0_16.index t (1 : Fin 2) = 0) :=
  (by decide +kernel : ∀ t : Fin grid0.N, _)

/-- Window 0's block at point `t`, at `(e, k)`: row `4000 t + e` of its array. -/
theorem blk0 (c : Dev nD) (t : Fin cfg0.N) (e : Fin 4000) (k : Fin 128) :
    iblk m c 0 t (ix2 e k) = V m c main_v6 (ix2 ⟨4000 * t.val + e.val, by have := tlt t; have := e.isLt; omega⟩ k) := by
  show V m c main_v6 (((cfg0.win 0).blk t).view.emb (ix2 e k)) = _
  refine congrArg (V m c main_v6) (funext fun a => Fin.ext ?_)
  obtain ⟨h0, h1⟩ := (idx_facts t).1
  match a with
  | ⟨0, _⟩ => show win0_0.index t (0 : Fin 2) * 4000 + 1 * e.val = 4000 * t.val + e.val; omega
  | ⟨1, _⟩ => show win0_0.index t (1 : Fin 2) * 128 + 1 * k.val = k.val; omega

/-- Window 1's block at point `t`, at `(e, k)`: row `4000 t + e` of its array. -/
theorem blk1 (c : Dev nD) (t : Fin cfg0.N) (e : Fin 4000) (k : Fin 128) :
    iblk m c 1 t (ix2 e k) = V m c main_v13 (ix2 ⟨4000 * t.val + e.val, by have := tlt t; have := e.isLt; omega⟩ k) := by
  show V m c main_v13 (((cfg0.win 1).blk t).view.emb (ix2 e k)) = _
  refine congrArg (V m c main_v13) (funext fun a => Fin.ext ?_)
  obtain ⟨h0, h1⟩ := (idx_facts t).2.1
  match a with
  | ⟨0, _⟩ => show win0_1.index t (0 : Fin 2) * 4000 + 1 * e.val = 4000 * t.val + e.val; omega
  | ⟨1, _⟩ => show win0_1.index t (1 : Fin 2) * 128 + 1 * k.val = k.val; omega

/-- Window 2's block at point `t`, at `(e, k)`: row `4000 t + e` of its array. -/
theorem blk2 (c : Dev nD) (t : Fin cfg0.N) (e : Fin 4000) (k : Fin 172) :
    iblk m c 2 t (ix2 e k) = V m c main_arg3 (ix2 ⟨4000 * t.val + e.val, by have := tlt t; have := e.isLt; omega⟩ k) := by
  show V m c main_arg3 (((cfg0.win 2).blk t).view.emb (ix2 e k)) = _
  refine congrArg (V m c main_arg3) (funext fun a => Fin.ext ?_)
  obtain ⟨h0, h1⟩ := (idx_facts t).2.2.1
  match a with
  | ⟨0, _⟩ => show win0_2.index t (0 : Fin 2) * 4000 + 1 * e.val = 4000 * t.val + e.val; omega
  | ⟨1, _⟩ => show win0_2.index t (1 : Fin 2) * 172 + 1 * k.val = k.val; omega

/-- Window 3's block at point `t`, at `(e, k)`: row `4000 t + e` of its array. -/
theorem blk3 (c : Dev nD) (t : Fin cfg0.N) (e : Fin 4000) (k : Fin 100) :
    iblk m c 3 t (ix2 e k) = V m c main_arg4 (ix2 ⟨4000 * t.val + e.val, by have := tlt t; have := e.isLt; omega⟩ k) := by
  show V m c main_arg4 (((cfg0.win 3).blk t).view.emb (ix2 e k)) = _
  refine congrArg (V m c main_arg4) (funext fun a => Fin.ext ?_)
  obtain ⟨h0, h1⟩ := (idx_facts t).2.2.2.1
  match a with
  | ⟨0, _⟩ => show win0_3.index t (0 : Fin 2) * 4000 + 1 * e.val = 4000 * t.val + e.val; omega
  | ⟨1, _⟩ => show win0_3.index t (1 : Fin 2) * 100 + 1 * k.val = k.val; omega

/-- Window 4 stages its whole array at every point. -/
theorem blk4 (c : Dev nD) (t : Fin cfg0.N) (e : Fin 128) (k : Fin 128) :
    iblk m c 4 t (ix2 e k) = V m c main_v15 (ix2 e k) := by
  show V m c main_v15 (((cfg0.win 4).blk t).view.emb (ix2 e k)) = _
  refine congrArg (V m c main_v15) (funext fun a => Fin.ext ?_)
  obtain ⟨h0, h1⟩ := (idx_facts t).2.2.2.2.1
  match a with
  | ⟨0, _⟩ => show win0_4.index t (0 : Fin 2) * 128 + 1 * e.val = e.val; omega
  | ⟨1, _⟩ => show win0_4.index t (1 : Fin 2) * 128 + 1 * k.val = k.val; omega

/-- Window 5 stages its whole array at every point. -/
theorem blk5 (c : Dev nD) (t : Fin cfg0.N) (e : Fin 128) (k : Fin 128) :
    iblk m c 5 t (ix2 e k) = V m c main_v17 (ix2 e k) := by
  show V m c main_v17 (((cfg0.win 5).blk t).view.emb (ix2 e k)) = _
  refine congrArg (V m c main_v17) (funext fun a => Fin.ext ?_)
  obtain ⟨h0, h1⟩ := (idx_facts t).2.2.2.2.2.1
  match a with
  | ⟨0, _⟩ => show win0_5.index t (0 : Fin 2) * 128 + 1 * e.val = e.val; omega
  | ⟨1, _⟩ => show win0_5.index t (1 : Fin 2) * 128 + 1 * k.val = k.val; omega

/-- Window 6 stages its whole array at every point. -/
theorem blk6 (c : Dev nD) (t : Fin cfg0.N) (e : Fin 172) (k : Fin 128) :
    iblk m c 6 t (ix2 e k) = V m c main_v19 (ix2 e k) := by
  show V m c main_v19 (((cfg0.win 6).blk t).view.emb (ix2 e k)) = _
  refine congrArg (V m c main_v19) (funext fun a => Fin.ext ?_)
  obtain ⟨h0, h1⟩ := (idx_facts t).2.2.2.2.2.2.1
  match a with
  | ⟨0, _⟩ => show win0_6.index t (0 : Fin 2) * 172 + 1 * e.val = e.val; omega
  | ⟨1, _⟩ => show win0_6.index t (1 : Fin 2) * 128 + 1 * k.val = k.val; omega

/-- Window 7 stages its whole array at every point. -/
theorem blk7 (c : Dev nD) (t : Fin cfg0.N) (e : Fin 100) (k : Fin 128) :
    iblk m c 7 t (ix2 e k) = V m c main_v21 (ix2 e k) := by
  show V m c main_v21 (((cfg0.win 7).blk t).view.emb (ix2 e k)) = _
  refine congrArg (V m c main_v21) (funext fun a => Fin.ext ?_)
  obtain ⟨h0, h1⟩ := (idx_facts t).2.2.2.2.2.2.2.1
  match a with
  | ⟨0, _⟩ => show win0_7.index t (0 : Fin 2) * 100 + 1 * e.val = e.val; omega
  | ⟨1, _⟩ => show win0_7.index t (1 : Fin 2) * 128 + 1 * k.val = k.val; omega

/-- Window 8 stages its whole array at every point. -/
theorem blk8 (c : Dev nD) (t : Fin cfg0.N) (e : Fin 1) (k : Fin 128) :
    iblk m c 8 t (ix2 e k) = V m c main_v28 (ix2 e k) := by
  show V m c main_v28 (((cfg0.win 8).blk t).view.emb (ix2 e k)) = _
  refine congrArg (V m c main_v28) (funext fun a => Fin.ext ?_)
  obtain ⟨h0, h1⟩ := (idx_facts t).2.2.2.2.2.2.2.2.1
  match a with
  | ⟨0, _⟩ => show win0_8.index t (0 : Fin 2) * 1 + 1 * e.val = e.val; omega
  | ⟨1, _⟩ => show win0_8.index t (1 : Fin 2) * 128 + 1 * k.val = k.val; omega

/-- Window 9 stages its whole array at every point. -/
theorem blk9 (c : Dev nD) (t : Fin cfg0.N) (e : Fin 128) (k : Fin 128) :
    iblk m c 9 t (ix2 e k) = V m c main_v22 (ix2 e k) := by
  show V m c main_v22 (((cfg0.win 9).blk t).view.emb (ix2 e k)) = _
  refine congrArg (V m c main_v22) (funext fun a => Fin.ext ?_)
  obtain ⟨h0, h1⟩ := (idx_facts t).2.2.2.2.2.2.2.2.2.1
  match a with
  | ⟨0, _⟩ => show win0_9.index t (0 : Fin 2) * 128 + 1 * e.val = e.val; omega
  | ⟨1, _⟩ => show win0_9.index t (1 : Fin 2) * 128 + 1 * k.val = k.val; omega

/-- Window 10 stages its whole array at every point. -/
theorem blk10 (c : Dev nD) (t : Fin cfg0.N) (e : Fin 1) (k : Fin 128) :
    iblk m c 10 t (ix2 e k) = V m c main_v29 (ix2 e k) := by
  show V m c main_v29 (((cfg0.win 10).blk t).view.emb (ix2 e k)) = _
  refine congrArg (V m c main_v29) (funext fun a => Fin.ext ?_)
  obtain ⟨h0, h1⟩ := (idx_facts t).2.2.2.2.2.2.2.2.2.2.1
  match a with
  | ⟨0, _⟩ => show win0_10.index t (0 : Fin 2) * 1 + 1 * e.val = e.val; omega
  | ⟨1, _⟩ => show win0_10.index t (1 : Fin 2) * 128 + 1 * k.val = k.val; omega

/-- Window 11 stages its whole array at every point. -/
theorem blk11 (c : Dev nD) (t : Fin cfg0.N) (e : Fin 128) (k : Fin 128) :
    iblk m c 11 t (ix2 e k) = V m c main_v24 (ix2 e k) := by
  show V m c main_v24 (((cfg0.win 11).blk t).view.emb (ix2 e k)) = _
  refine congrArg (V m c main_v24) (funext fun a => Fin.ext ?_)
  obtain ⟨h0, h1⟩ := (idx_facts t).2.2.2.2.2.2.2.2.2.2.2.1
  match a with
  | ⟨0, _⟩ => show win0_11.index t (0 : Fin 2) * 128 + 1 * e.val = e.val; omega
  | ⟨1, _⟩ => show win0_11.index t (1 : Fin 2) * 128 + 1 * k.val = k.val; omega

/-- Window 12 stages its whole array at every point. -/
theorem blk12 (c : Dev nD) (t : Fin cfg0.N) (e : Fin 128) (k : Fin 128) :
    iblk m c 12 t (ix2 e k) = V m c main_v26 (ix2 e k) := by
  show V m c main_v26 (((cfg0.win 12).blk t).view.emb (ix2 e k)) = _
  refine congrArg (V m c main_v26) (funext fun a => Fin.ext ?_)
  obtain ⟨h0, h1⟩ := (idx_facts t).2.2.2.2.2.2.2.2.2.2.2.2.1
  match a with
  | ⟨0, _⟩ => show win0_12.index t (0 : Fin 2) * 128 + 1 * e.val = e.val; omega
  | ⟨1, _⟩ => show win0_12.index t (1 : Fin 2) * 128 + 1 * k.val = k.val; omega

/-- Window 13 stages its whole array at every point. -/
theorem blk13 (c : Dev nD) (t : Fin cfg0.N) (e : Fin 1) (k : Fin 128) :
    iblk m c 13 t (ix2 e k) = V m c main_v30 (ix2 e k) := by
  show V m c main_v30 (((cfg0.win 13).blk t).view.emb (ix2 e k)) = _
  refine congrArg (V m c main_v30) (funext fun a => Fin.ext ?_)
  obtain ⟨h0, h1⟩ := (idx_facts t).2.2.2.2.2.2.2.2.2.2.2.2.2.1
  match a with
  | ⟨0, _⟩ => show win0_13.index t (0 : Fin 2) * 1 + 1 * e.val = e.val; omega
  | ⟨1, _⟩ => show win0_13.index t (1 : Fin 2) * 128 + 1 * k.val = k.val; omega

/-- Window 14 stages its whole array at every point. -/
theorem blk14 (c : Dev nD) (t : Fin cfg0.N) (e : Fin 128) (k : Fin 128) :
    iblk m c 14 t (ix2 e k) = V m c main_v27 (ix2 e k) := by
  show V m c main_v27 (((cfg0.win 14).blk t).view.emb (ix2 e k)) = _
  refine congrArg (V m c main_v27) (funext fun a => Fin.ext ?_)
  obtain ⟨h0, h1⟩ := (idx_facts t).2.2.2.2.2.2.2.2.2.2.2.2.2.2.1
  match a with
  | ⟨0, _⟩ => show win0_14.index t (0 : Fin 2) * 128 + 1 * e.val = e.val; omega
  | ⟨1, _⟩ => show win0_14.index t (1 : Fin 2) * 128 + 1 * k.val = k.val; omega

/-- Window 15 stages its whole array at every point. -/
theorem blk15 (c : Dev nD) (t : Fin cfg0.N) (e : Fin 1) (k : Fin 128) :
    iblk m c 15 t (ix2 e k) = V m c main_v31 (ix2 e k) := by
  show V m c main_v31 (((cfg0.win 15).blk t).view.emb (ix2 e k)) = _
  refine congrArg (V m c main_v31) (funext fun a => Fin.ext ?_)
  obtain ⟨h0, h1⟩ := (idx_facts t).2.2.2.2.2.2.2.2.2.2.2.2.2.2.2.1
  match a with
  | ⟨0, _⟩ => show win0_15.index t (0 : Fin 2) * 1 + 1 * e.val = e.val; omega
  | ⟨1, _⟩ => show win0_15.index t (1 : Fin 2) * 128 + 1 * k.val = k.val; omega

/-- Row `e` of window 0's block at point `t` is row `4000 t + e` of its array. -/
theorem rowblk0 (c : Dev nD) (t : Fin cfg0.N) (e : Fin 4000) (E : Fin 100000) (hE : E.val = 4000 * t.val + e.val) :
    row (iblk m c 0 t) e = row (V m c main_v6) E := by
  have hb : 4000 * t.val + e.val < 100000 := by have := tlt t; have := e.isLt; omega
  obtain rfl : E = ⟨4000 * t.val + e.val, hb⟩ := Fin.ext hE
  exact funext fun k => blk0 m c t e k

/-- Row `e` of window 1's block at point `t` is row `4000 t + e` of its array. -/
theorem rowblk1 (c : Dev nD) (t : Fin cfg0.N) (e : Fin 4000) (E : Fin 100000) (hE : E.val = 4000 * t.val + e.val) :
    row (iblk m c 1 t) e = row (V m c main_v13) E := by
  have hb : 4000 * t.val + e.val < 100000 := by have := tlt t; have := e.isLt; omega
  obtain rfl : E = ⟨4000 * t.val + e.val, hb⟩ := Fin.ext hE
  exact funext fun k => blk1 m c t e k

/-- Row `e` of window 2's block at point `t` is row `4000 t + e` of its array. -/
theorem rowblk2 (c : Dev nD) (t : Fin cfg0.N) (e : Fin 4000) (E : Fin 100000) (hE : E.val = 4000 * t.val + e.val) :
    row (iblk m c 2 t) e = row (V m c main_arg3) E := by
  have hb : 4000 * t.val + e.val < 100000 := by have := tlt t; have := e.isLt; omega
  obtain rfl : E = ⟨4000 * t.val + e.val, hb⟩ := Fin.ext hE
  exact funext fun k => blk2 m c t e k

/-- Row `e` of window 3's block at point `t` is row `4000 t + e` of its array. -/
theorem rowblk3 (c : Dev nD) (t : Fin cfg0.N) (e : Fin 4000) (E : Fin 100000) (hE : E.val = 4000 * t.val + e.val) :
    row (iblk m c 3 t) e = row (V m c main_arg4) E := by
  have hb : 4000 * t.val + e.val < 100000 := by have := tlt t; have := e.isLt; omega
  obtain rfl : E = ⟨4000 * t.val + e.val, hb⟩ := Fin.ext hE
  exact funext fun k => blk3 m c t e k

theorem curblk4 (c : Dev nD) (t : Fin cfg0.N) : cur (iblk m c 4 t) = cur (V m c main_v15) :=
  funext fun k => funext fun q => blk4 m c t k q

theorem curblk5 (c : Dev nD) (t : Fin cfg0.N) : cur (iblk m c 5 t) = cur (V m c main_v17) :=
  funext fun k => funext fun q => blk5 m c t k q

theorem curblk6 (c : Dev nD) (t : Fin cfg0.N) : cur (iblk m c 6 t) = cur (V m c main_v19) :=
  funext fun k => funext fun q => blk6 m c t k q

theorem curblk7 (c : Dev nD) (t : Fin cfg0.N) : cur (iblk m c 7 t) = cur (V m c main_v21) :=
  funext fun k => funext fun q => blk7 m c t k q

theorem browblk8 (c : Dev nD) (t : Fin cfg0.N) : brow (iblk m c 8 t) = brow (V m c main_v28) :=
  funext fun q => blk8 m c t (0 : Fin 1) q

theorem curblk9 (c : Dev nD) (t : Fin cfg0.N) : cur (iblk m c 9 t) = cur (V m c main_v22) :=
  funext fun k => funext fun q => blk9 m c t k q

theorem browblk10 (c : Dev nD) (t : Fin cfg0.N) : brow (iblk m c 10 t) = brow (V m c main_v29) :=
  funext fun q => blk10 m c t (0 : Fin 1) q

theorem curblk11 (c : Dev nD) (t : Fin cfg0.N) : cur (iblk m c 11 t) = cur (V m c main_v24) :=
  funext fun k => funext fun q => blk11 m c t k q

theorem curblk12 (c : Dev nD) (t : Fin cfg0.N) : cur (iblk m c 12 t) = cur (V m c main_v26) :=
  funext fun k => funext fun q => blk12 m c t k q

theorem browblk13 (c : Dev nD) (t : Fin cfg0.N) : brow (iblk m c 13 t) = brow (V m c main_v30) :=
  funext fun q => blk13 m c t (0 : Fin 1) q

theorem curblk14 (c : Dev nD) (t : Fin cfg0.N) : cur (iblk m c 14 t) = cur (V m c main_v27) :=
  funext fun k => funext fun q => blk14 m c t k q

theorem browblk15 (c : Dev nD) (t : Fin cfg0.N) : brow (iblk m c 15 t) = brow (V m c main_v31) :=
  funext fun q => blk15 m c t (0 : Fin 1) q

/-- WHAT POINT `t` WRITES BACK is block `t` of `G` of the operand arrays. -/
theorem flushed_eq (c : Dev nD) (t : Fin cfg0.N) :
    (dats m 0 c).flushed 16 t = ((cfg0.win 16).blk t).view.read (Elt Ideal) (KG m c) := by
  show (cfg0.win 16).cut (grid0.coords t) ((dats m 0 c).after 16 t) = _
  rw [after0_16]
  refine funext fun (j : S8000x128.Idx) => ?_
  obtain ⟨r, q, rfl⟩ : ∃ (r : Fin 8000) (q : Fin 128), j = ix2 r q := ⟨j 0, j 1, eq_ix2 j⟩
  have ht := tlt t
  have hr := r.isLt
  have hemb : ((cfg0.win 16).blk t).view.emb (ix2 r q)
      = (ix2 (⟨8000 * t.val + r.val, by omega⟩ : Fin 200000) q : S200000x128.Idx) := by
    refine funext fun a => Fin.ext ?_
    obtain ⟨h0, h1⟩ := (idx_facts t).2.2.2.2.2.2.2.2.2.2.2.2.2.2.2.2
    match a with
    | ⟨0, _⟩ => show win0_16.index t (0 : Fin 2) * 8000 + 1 * r.val = 8000 * t.val + r.val; omega
    | ⟨1, _⟩ => show win0_16.index t (1 : Fin 2) * 128 + 1 * q.val = q.val; omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r q) = KG m c (((cfg0.win 16).blk t).view.emb (ix2 r q))
  rw [hemb]
  have hpar : (8000 * t.val + r.val) % 2 = r.val % 2 := by omega
  refine ((out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r q).trans ?_).trans
    (G_apply (V m c main_v6) (V m c main_v13) (V m c main_arg3) (V m c main_arg4) (V m c main_v15) (V m c main_v17) (V m c main_v19) (V m c main_v21) (V m c main_v28) (V m c main_v22) (V m c main_v29) (V m c main_v24) (V m c main_v26) (V m c main_v30) (V m c main_v27) (V m c main_v31) ⟨8000 * t.val + r.val, by omega⟩ q ⟨4000 * t.val + r.val / 2, by omega⟩
      (by show 4000 * t.val + r.val / 2 = (8000 * t.val + r.val) / 2; omega)).symm
  simp only [hpar, msgRow]
  rw [rowblk0 m c t ⟨r.val / 2, by omega⟩ ⟨4000 * t.val + r.val / 2, by omega⟩ rfl,
    rowblk1 m c t ⟨r.val / 2, by omega⟩ ⟨4000 * t.val + r.val / 2, by omega⟩ rfl,
    rowblk2 m c t ⟨r.val / 2, by omega⟩ ⟨4000 * t.val + r.val / 2, by omega⟩ rfl,
    rowblk3 m c t ⟨r.val / 2, by omega⟩ ⟨4000 * t.val + r.val / 2, by omega⟩ rfl,
    curblk4 m c t,
    curblk5 m c t,
    curblk6 m c t,
    curblk7 m c t,
    browblk8 m c t,
    curblk9 m c t,
    browblk10 m c t,
    curblk11 m c t,
    curblk12 m c t,
    browblk13 m c t,
    curblk14 m c t,
    browblk15 m c t]

/-- An index of the result array is in point `t`'s block iff each coordinate is in the block's range on its axis. -/
theorem mem_blk (t : Fin cfg0.N) (i : S200000x128.Idx) :
    i ∈ ((cfg0.win 16).blk t).view.set ↔ ∀ a : Fin 2, win0_16.index t a * S8000x128.size a ≤ (i a).val
      ∧ (i a).val < win0_16.index t a * S8000x128.size a + S8000x128.size a := by
  show i ∈ ((View.whole main_v32).slice (win0_16.rect t)).set ↔ _
  rw [View.set_slice_whole, Rect.mem_set_unit]
  exact Iff.rfl

/-- The 25 blocks tile the result: row `R` is in the block of point `R / 8000`. -/
theorem cover (i : S200000x128.Idx) :
    ∃ t : Fin cfg0.N, (cfg0.win 16).flush t = true ∧ i ∈ ((cfg0.win 16).blk t).view.set := by
  have hi0 : (i 0).val < 200000 := (i 0).isLt
  have hi1 : (i 1).val < 128 := (i 1).isLt
  have hN : (i 0).val / 8000 < cfg0.N := by show _ < 25; omega
  refine ⟨⟨(i 0).val / 8000, hN⟩, flush0_16 _, ?_⟩
  rw [mem_blk]
  obtain ⟨h0, h1⟩ := (idx_facts ⟨(i 0).val / 8000, hN⟩).2.2.2.2.2.2.2.2.2.2.2.2.2.2.2.2
  intro a
  match a with
  | ⟨0, _⟩ =>
    show win0_16.index ⟨(i 0).val / 8000, hN⟩ (0 : Fin 2) * 8000 ≤ (i 0).val
      ∧ (i 0).val < win0_16.index ⟨(i 0).val / 8000, hN⟩ (0 : Fin 2) * 8000 + 8000
    rw [h0]; show (i 0).val / 8000 * 8000 ≤ (i 0).val ∧ (i 0).val < (i 0).val / 8000 * 8000 + 8000; omega
  | ⟨1, _⟩ =>
    show win0_16.index ⟨(i 0).val / 8000, hN⟩ (1 : Fin 2) * 128 ≤ (i 1).val
      ∧ (i 1).val < win0_16.index ⟨(i 0).val / 8000, hN⟩ (1 : Fin 2) * 128 + 128
    rw [h1]; omega

/-- THE RESULT ARRAY after the region: `G` of the operand arrays. -/
theorem final (c : Dev nD) : (dats m 0 c).arrAt 16 cfg0.N = KG m c :=
  (dats m 0 c).arrAt_eq_of_cover 16 (KG m c) (fun t _ => flushed_eq m c t) (cover)

end Cert.KBlocks

end
-- ==== Proof.LibRowSlice.lean ====
/-
  Consecutive rows sliced out of a matrix, read at an index.

  The unit-stride slice of `n` rows of an `a × b` matrix from row `off` on, all columns, reads, at `(k, q)`, the matrix
  at `(off + k, q)`. For any element type and any extents.
-/
import Idealize.ShloMosaic.Lib.Pipeline.Value
import Idealize.ShloMosaic.Lib.ValueIdx

noncomputable section

namespace Cert.Lib.RowSlice

open Idealize.ShloMosaic Idealize.ShloMosaic.ValueIdx

variable {a b n : Nat} {α : Type}

/-- The slice at `(k, q)` is the matrix at `(off + k, q)`. -/
theorem apply (W : (⟨2, ![a, b]⟩ : Shape).Idx → α) (off : Nat)
    (h : (⟨2, ![a, b]⟩ : Shape).Slices ![off, 0] ⟨2, ![n, b]⟩) (k : Fin n) (q : Fin b) (hk : off + k.val < a) :
    extractStridedSlice ⟨2, ![n, b]⟩ ![off, 0] W h (ix2 k q) = W (ix2 ⟨off + k.val, hk⟩ q) :=
  extractStridedSlice_apply ![off, 0] W h (ix2 k q) (ix2 ⟨off + k.val, hk⟩ q) fun ax => by
    match ax with
    | ⟨0, _⟩ => rfl
    | ⟨1, _⟩ => show q.val = 0 + q.val; rw [Nat.zero_add]

end Cert.Lib.RowSlice

end
-- ==== Proof.KVals.lean ====
/-
  The kernel's operands are pieces of the arguments.

  The four weight blocks of the message network are the row ranges 0–127, 128–255, 256–427 and 428–527 of the first
  weight matrix, converted to the narrower float format (the identity at the exact values); the update network's two
  blocks are rows 0–127 and 128–255 of its first matrix; each bias row is the bias vector reshaped to `1 × 128`. So
  the function `G` of the operand arrays is the specification `Mlp.vals` of the argument arrays.
-/
import proofs.«120662_j70557722738855_2_alg».proof.Proof.KBlocks
import proofs.«120662_j70557722738855_2_alg».proof.Proof.LibRowSlice
import Idealize.ShloMosaic.Lib.ValueLayout

noncomputable section

namespace Cert.KVals

open Idealize.ShloMosaic Idealize.ShloMosaic.ValueIdx
open Cert.KernelIdeal Cert.Mlp Cert.KPay Cert.KBlocks

/-- A row range of a matrix, converted, curried: the rows from `off` on. -/
theorem cur_slice {a n : Nat} (W : Mat a 128) (off : Nat) (hle : off + n ≤ a)
    (h : (⟨2, ![a, 128]⟩ : Shape).Slices ![off, 0] ⟨2, ![n, 128]⟩) (hb : FTy.bf16.bits < FTy.f32.bits) :
    cur (truncf (F := Ideal) .bf16 (extractStridedSlice ⟨2, ![n, 128]⟩ ![off, 0] W h) hb) = blk W off n hle :=
  funext fun k => funext fun q => Cert.Lib.RowSlice.apply W off h k q (by have := k.isLt; omega)

/-- A bias vector reshaped to a row, read along the row. -/
theorem brow_cast (v : Vec1 128) (h : (⟨1, ![128]⟩ : Shape).ShapeCasts ⟨2, ![1, 128]⟩) :
    brow (shapeCast ⟨2, ![1, 128]⟩ v h) = vec v :=
  funext fun q => shapeCast_a_1a_apply v h (0 : Fin 1) q

/-- `G` of the operands as the host prefix makes them is the specification of the arguments. -/
theorem G_eq_vals (s d : Mat 100000 128) (ef : Mat 100000 172) (tf : Mat 100000 100) (x5 : Mat 528 128) (x6 : Vec1 128)
    (x7 : Mat 128 128) (x8 : Vec1 128) (x9 : Mat 256 128) (x10 : Vec1 128) (x11 : Mat 128 128) (x12 : Vec1 128)
    (hb : FTy.bf16.bits < FTy.f32.bits)
    (h0 : (⟨2, ![528, 128]⟩ : Shape).Slices ![0, 0] ⟨2, ![128, 128]⟩)
    (h1 : (⟨2, ![528, 128]⟩ : Shape).Slices ![128, 0] ⟨2, ![128, 128]⟩)
    (h2 : (⟨2, ![528, 128]⟩ : Shape).Slices ![256, 0] ⟨2, ![172, 128]⟩)
    (h3 : (⟨2, ![528, 128]⟩ : Shape).Slices ![428, 0] ⟨2, ![100, 128]⟩)
    (g0 : (⟨2, ![256, 128]⟩ : Shape).Slices ![0, 0] ⟨2, ![128, 128]⟩)
    (g1 : (⟨2, ![256, 128]⟩ : Shape).Slices ![128, 0] ⟨2, ![128, 128]⟩)
    (hc : (⟨1, ![128]⟩ : Shape).ShapeCasts ⟨2, ![1, 128]⟩) :
    G s d ef tf
        (truncf (F := Ideal) .bf16 (extractStridedSlice ⟨2, ![128, 128]⟩ ![0, 0] x5 h0) hb)
        (truncf (F := Ideal) .bf16 (extractStridedSlice ⟨2, ![128, 128]⟩ ![128, 0] x5 h1) hb)
        (truncf (F := Ideal) .bf16 (extractStridedSlice ⟨2, ![172, 128]⟩ ![256, 0] x5 h2) hb)
        (truncf (F := Ideal) .bf16 (extractStridedSlice ⟨2, ![100, 128]⟩ ![428, 0] x5 h3) hb)
        (shapeCast ⟨2, ![1, 128]⟩ x6 hc)
        (truncf (F := Ideal) .bf16 x7 hb)
        (shapeCast ⟨2, ![1, 128]⟩ x8 hc)
        (truncf (F := Ideal) .bf16 (extractStridedSlice ⟨2, ![128, 128]⟩ ![0, 0] x9 g0) hb)
        (truncf (F := Ideal) .bf16 (extractStridedSlice ⟨2, ![128, 128]⟩ ![128, 0] x9 g1) hb)
        (shapeCast ⟨2, ![1, 128]⟩ x10 hc)
        (truncf (F := Ideal) .bf16 x11 hb)
        (shapeCast ⟨2, ![1, 128]⟩ x12 hc)
      = vals s d ef tf x5 x6 x7 x8 x9 x10 x11 x12 := by
  funext i
  unfold G vals message update
  rw [cur_slice x5 0 (by omega) h0 hb, cur_slice x5 128 (by omega) h1 hb, cur_slice x5 256 (by omega) h2 hb,
    cur_slice x5 428 (by omega) h3 hb, cur_slice x9 0 (by omega) g0 hb, cur_slice x9 128 (by omega) g1 hb,
    brow_cast x6 hc, brow_cast x8 hc, brow_cast x10 hc, brow_cast x12 hc]
  rfl

end Cert.KVals

end
-- ==== Proof.KHost.lean ====
/-
  The arrays the region reads, as functions of the launch contents.

  Before its one region the program computes, from the launch contents alone, every array the region's windows
  read that is not itself an argument: the node table's rows gathered at the two endpoint vectors (an index below
  zero counted from the end of the table), the consecutive row blocks of the weight matrices rounded to bf16, and
  the biases as one-row matrices. Each statement below reads one such array, where the region is entered, as the
  composed term of the operations that wrote it, applied to the arguments' contents as launched; no operation
  before the region writes an argument. The gathers stay folded: a statement says WHICH gather of WHICH index
  vector, not what it holds at an index.
-/
import proofs.«120662_j70557722738855_2_alg».proof.Proof.Gen.KernelIdeal.Frame
import Idealize.ShloMosaic.PureOps.Ideal

set_option maxRecDepth 16384

noncomputable section

namespace Cert.KSide

open Idealize.ShloMosaic Idealize.ShloMosaic.TcCoe Idealize.ShloMosaic.Tactic
open Idealize.ShloMosaic.StableHlo
open Cert.KernelIdeal Cert.KernelIdeal.Gen

variable (m : (ℓ : Loc nD τ sig) → Buf (Elt Ideal) ℓ)

/-- A row gather of the node table by an index vector, an index below zero counted from the end:
    row `e` of the result is row `ids e` of the table, or row `ids e + 200000` when `ids e < 0`. -/
def pick (x0 : (⟨S200000x128, .f32⟩ : BufTy).Contents (Elt Ideal)) (ids : (⟨S100000, .i32⟩ : BufTy).Contents (Elt Ideal)) : (⟨S100000x128, .f32⟩ : BufTy).Contents (Elt Ideal) :=
  Host.gather gather_S200000x128_S100000x1_S100000x128_1_0_n_n_0_1_1128 x0
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 200000#32))) ids))

/-! The two gathered node-row arrays: the table's rows at the first and at the second endpoint vector. -/

theorem V_v6 (c : Dev nD) :
    (V (F := Ideal) m c main_v6 : (⟨S100000x128, .f32⟩ : BufTy).Contents (Elt Ideal))
      = (pick (m ((c : Thread nD τ).loc main_arg0)) (m ((c : Thread nD τ).loc main_arg1)) : (⟨S100000x128, .f32⟩ : BufTy).Contents (Elt Ideal)) := by
  show StableHlo.after hostOps0 (fun b => m (c, b)) (Proc.devRef .tc main_v6) = _
  after_results_simp <;> rfl

theorem V_v13 (c : Dev nD) :
    (V (F := Ideal) m c main_v13 : (⟨S100000x128, .f32⟩ : BufTy).Contents (Elt Ideal))
      = (pick (m ((c : Thread nD τ).loc main_arg0)) (m ((c : Thread nD τ).loc main_arg2)) : (⟨S100000x128, .f32⟩ : BufTy).Contents (Elt Ideal)) := by
  show StableHlo.after hostOps0 (fun b => m (c, b)) (Proc.devRef .tc main_v13) = _
  after_results_simp <;> rfl

/-! The four row blocks of the first weight matrix (rows 0–127, 128–255, 256–427, 428–527), each rounded to bf16. -/

theorem V_v15 (c : Dev nD) :
    (V (F := Ideal) m c main_v15 : (⟨S128x128, .bf16⟩ : BufTy).Contents (Elt Ideal))
      = (truncf (F := Ideal) .bf16 (extractStridedSlice S128x128 ![0, 0] ((m ((c : Thread nD τ).loc main_arg5)) : (⟨S528x128, .f32⟩ : BufTy).Contents (Elt Ideal)) slices_S528x128_S128x128_0_0) bitsLt_bf16_f32 : (⟨S128x128, .bf16⟩ : BufTy).Contents (Elt Ideal)) := by
  show StableHlo.after hostOps0 (fun b => m (c, b)) (Proc.devRef .tc main_v15) = _
  after_results_simp <;> rfl

theorem V_v17 (c : Dev nD) :
    (V (F := Ideal) m c main_v17 : (⟨S128x128, .bf16⟩ : BufTy).Contents (Elt Ideal))
      = (truncf (F := Ideal) .bf16 (extractStridedSlice S128x128 ![128, 0] ((m ((c : Thread nD τ).loc main_arg5)) : (⟨S528x128, .f32⟩ : BufTy).Contents (Elt Ideal)) slices_S528x128_S128x128_128_0) bitsLt_bf16_f32 : (⟨S128x128, .bf16⟩ : BufTy).Contents (Elt Ideal)) := by
  show StableHlo.after hostOps0 (fun b => m (c, b)) (Proc.devRef .tc main_v17) = _
  after_results_simp <;> rfl

theorem V_v19 (c : Dev nD) :
    (V (F := Ideal) m c main_v19 : (⟨S172x128, .bf16⟩ : BufTy).Contents (Elt Ideal))
      = (truncf (F := Ideal) .bf16 (extractStridedSlice S172x128 ![256, 0] ((m ((c : Thread nD τ).loc main_arg5)) : (⟨S528x128, .f32⟩ : BufTy).Contents (Elt Ideal)) slices_S528x128_S172x128_256_0) bitsLt_bf16_f32 : (⟨S172x128, .bf16⟩ : BufTy).Contents (Elt Ideal)) := by
  show StableHlo.after hostOps0 (fun b => m (c, b)) (Proc.devRef .tc main_v19) = _
  after_results_simp <;> rfl

theorem V_v21 (c : Dev nD) :
    (V (F := Ideal) m c main_v21 : (⟨S100x128, .bf16⟩ : BufTy).Contents (Elt Ideal))
      = (truncf (F := Ideal) .bf16 (extractStridedSlice S100x128 ![428, 0] ((m ((c : Thread nD τ).loc main_arg5)) : (⟨S528x128, .f32⟩ : BufTy).Contents (Elt Ideal)) slices_S528x128_S100x128_428_0) bitsLt_bf16_f32 : (⟨S100x128, .bf16⟩ : BufTy).Contents (Elt Ideal)) := by
  show StableHlo.after hostOps0 (fun b => m (c, b)) (Proc.devRef .tc main_v21) = _
  after_results_simp <;> rfl

/-! The square weight matrices rounded to bf16, whole or by their two row blocks. -/

theorem V_v22 (c : Dev nD) :
    (V (F := Ideal) m c main_v22 : (⟨S128x128, .bf16⟩ : BufTy).Contents (Elt Ideal))
      = (truncf (F := Ideal) .bf16 ((m ((c : Thread nD τ).loc main_arg7)) : (⟨S128x128, .f32⟩ : BufTy).Contents (Elt Ideal)) bitsLt_bf16_f32 : (⟨S128x128, .bf16⟩ : BufTy).Contents (Elt Ideal)) := by
  show StableHlo.after hostOps0 (fun b => m (c, b)) (Proc.devRef .tc main_v22) = _
  after_results_simp <;> rfl

theorem V_v24 (c : Dev nD) :
    (V (F := Ideal) m c main_v24 : (⟨S128x128, .bf16⟩ : BufTy).Contents (Elt Ideal))
      = (truncf (F := Ideal) .bf16 (extractStridedSlice S128x128 ![0, 0] ((m ((c : Thread nD τ).loc main_arg9)) : (⟨S256x128, .f32⟩ : BufTy).Contents (Elt Ideal)) slices_S256x128_S128x128_0_0) bitsLt_bf16_f32 : (⟨S128x128, .bf16⟩ : BufTy).Contents (Elt Ideal)) := by
  show StableHlo.after hostOps0 (fun b => m (c, b)) (Proc.devRef .tc main_v24) = _
  after_results_simp <;> rfl

theorem V_v26 (c : Dev nD) :
    (V (F := Ideal) m c main_v26 : (⟨S128x128, .bf16⟩ : BufTy).Contents (Elt Ideal))
      = (truncf (F := Ideal) .bf16 (extractStridedSlice S128x128 ![128, 0] ((m ((c : Thread nD τ).loc main_arg9)) : (⟨S256x128, .f32⟩ : BufTy).Contents (Elt Ideal)) slices_S256x128_S128x128_128_0) bitsLt_bf16_f32 : (⟨S128x128, .bf16⟩ : BufTy).Contents (Elt Ideal)) := by
  show StableHlo.after hostOps0 (fun b => m (c, b)) (Proc.devRef .tc main_v26) = _
  after_results_simp <;> rfl

theorem V_v27 (c : Dev nD) :
    (V (F := Ideal) m c main_v27 : (⟨S128x128, .bf16⟩ : BufTy).Contents (Elt Ideal))
      = (truncf (F := Ideal) .bf16 ((m ((c : Thread nD τ).loc main_arg11)) : (⟨S128x128, .f32⟩ : BufTy).Contents (Elt Ideal)) bitsLt_bf16_f32 : (⟨S128x128, .bf16⟩ : BufTy).Contents (Elt Ideal)) := by
  show StableHlo.after hostOps0 (fun b => m (c, b)) (Proc.devRef .tc main_v27) = _
  after_results_simp <;> rfl

/-! The four biases as one-row matrices. -/

theorem V_v28 (c : Dev nD) :
    (V (F := Ideal) m c main_v28 : (⟨S1x128, .f32⟩ : BufTy).Contents (Elt Ideal))
      = (shapeCast S1x128 ((m ((c : Thread nD τ).loc main_arg6)) : (⟨S128, .f32⟩ : BufTy).Contents (Elt Ideal)) shapeCasts_S128_S1x128 : (⟨S1x128, .f32⟩ : BufTy).Contents (Elt Ideal)) := by
  show StableHlo.after hostOps0 (fun b => m (c, b)) (Proc.devRef .tc main_v28) = _
  after_results_simp <;> rfl

theorem V_v29 (c : Dev nD) :
    (V (F := Ideal) m c main_v29 : (⟨S1x128, .f32⟩ : BufTy).Contents (Elt Ideal))
      = (shapeCast S1x128 ((m ((c : Thread nD τ).loc main_arg8)) : (⟨S128, .f32⟩ : BufTy).Contents (Elt Ideal)) shapeCasts_S128_S1x128 : (⟨S1x128, .f32⟩ : BufTy).Contents (Elt Ideal)) := by
  show StableHlo.after hostOps0 (fun b => m (c, b)) (Proc.devRef .tc main_v29) = _
  after_results_simp <;> rfl

theorem V_v30 (c : Dev nD) :
    (V (F := Ideal) m c main_v30 : (⟨S1x128, .f32⟩ : BufTy).Contents (Elt Ideal))
      = (shapeCast S1x128 ((m ((c : Thread nD τ).loc main_arg10)) : (⟨S128, .f32⟩ : BufTy).Contents (Elt Ideal)) shapeCasts_S128_S1x128 : (⟨S1x128, .f32⟩ : BufTy).Contents (Elt Ideal)) := by
  show StableHlo.after hostOps0 (fun b => m (c, b)) (Proc.devRef .tc main_v30) = _
  after_results_simp <;> rfl

theorem V_v31 (c : Dev nD) :
    (V (F := Ideal) m c main_v31 : (⟨S1x128, .f32⟩ : BufTy).Contents (Elt Ideal))
      = (shapeCast S1x128 ((m ((c : Thread nD τ).loc main_arg12)) : (⟨S128, .f32⟩ : BufTy).Contents (Elt Ideal)) shapeCasts_S128_S1x128 : (⟨S1x128, .f32⟩ : BufTy).Contents (Elt Ideal)) := by
  show StableHlo.after hostOps0 (fun b => m (c, b)) (Proc.devRef .tc main_v31) = _
  after_results_simp <;> rfl

end Cert.KSide

end
-- ==== Proof.KTail.lean ====
/-
  The lines after the region, as one function of the region's result array and of the launch contents.

  After its one region the program writes nothing back into the region's arrays. From the two endpoint vectors it
  builds, by a scatter with maximum over the interleaved endpoint list, the vector that gives each node row the last
  position naming it (or the least 32-bit integer when none does); it clamps that vector below at zero, counts an
  index below zero from the end, gathers the region's result array at those rows, and keeps at each node either
  the gathered row (some position names the node) or the node's launched row (none does). The statement reads the
  program's result array as that composed function applied to what the region left in its result window and to the
  three arguments as launched: no line after the region writes an argument, and none writes an array of the region.
  The scatter and the gathers stay folded throughout.
-/
import proofs.«120662_j70557722738855_2_alg».proof.Proof.Gen.KernelIdeal.Frame
import Idealize.ShloMosaic.PureOps.Ideal

set_option maxRecDepth 16384

noncomputable section

namespace Cert.KSide

open Idealize.ShloMosaic Idealize.ShloMosaic.TcCoe Idealize.ShloMosaic.Tactic
open Idealize.ShloMosaic.StableHlo
open Cert.KernelIdeal Cert.KernelIdeal.Gen

variable (m : (ℓ : Loc nD τ sig) → Buf (Elt Ideal) ℓ)

/-- For each position `p` of the interleaved endpoint list (position `2e` is the second endpoint vector's entry for edge
    `e`, position `2e+1` the first's), a scatter with maximum of the positions into a vector over the node rows: at node
    `n` the largest position whose endpoint is `n`, or the least 32-bit integer when no position names `n`. -/
def writer (x1 x2 : (⟨S100000, .i32⟩ : BufTy).Contents (Elt Ideal)) : (⟨S200000, .i32⟩ : BufTy).Contents (Elt Ideal) :=
  Host.scatter scatter_S200000_S200000x1_S200000_n_0_0_1 IntOp.maxsi
    (broadcastInDim S200000 ![] bcast_S_S200000 (constantI S_ 32 2147483648#32))
    (broadcastInDim S200000x1 ![0] bcast_S200000_S200000x1_0
      (shapeCast S200000
        (concatenate S100000x2 1
          [⟨S100000x1, broadcastInDim S100000x1 ![0] bcast_S100000_S100000x1_0 x2⟩,
           ⟨S100000x1, broadcastInDim S100000x1 ![0] bcast_S100000_S100000x1_0 x1⟩]
          concatenates_S100000x1_S100000x1_S100000x2_d1)
        shapeCasts_S100000x2_S200000))
    (iotaInDim S200000 32 0)

/-- The row the final gather reads at each node: the last writer clamped below at zero, then an index below zero
    counted from the end. -/
def lastRow (x1 x2 : (⟨S100000, .i32⟩ : BufTy).Contents (Elt Ideal)) : (⟨S200000, .i32⟩ : BufTy).Contents (Elt Ideal) :=
  select
    (cmpi .slt (maxsi (broadcastInDim S200000 ![] bcast_S_S200000 (constantI S_ 32 0#32)) (writer x1 x2))
      (broadcastInDim S200000 ![] bcast_S_S200000 (constantI S_ 32 0#32)))
    (addi (maxsi (broadcastInDim S200000 ![] bcast_S_S200000 (constantI S_ 32 0#32)) (writer x1 x2))
      (broadcastInDim S200000 ![] bcast_S_S200000 (constantI S_ 32 200000#32)))
    (maxsi (broadcastInDim S200000 ![] bcast_S_S200000 (constantI S_ 32 0#32)) (writer x1 x2))

/-- The lines after the region as one function of the region's result array `vals`, the node table `x0` and the two
    endpoint vectors: node `n`'s row is row `lastRow n` of `vals` when some position names `n` (its last writer is
    not negative), and its own row of `x0` otherwise. -/
def tail (vals x0 : (⟨S200000x128, .f32⟩ : BufTy).Contents (Elt Ideal)) (x1 x2 : (⟨S100000, .i32⟩ : BufTy).Contents (Elt Ideal)) : (⟨S200000x128, .f32⟩ : BufTy).Contents (Elt Ideal) :=
  select
    (broadcastInDim S200000x128 ![0, 1] bcast_S200000x1_S200000x128_0_1
      (broadcastInDim S200000x1 ![0] bcast_S200000_S200000x1_0
        (cmpi .sge (writer x1 x2) (broadcastInDim S200000 ![] bcast_S_S200000 (constantI S_ 32 0#32)))))
    (Host.gather gather_S200000x128_S200000x1_S200000x128_1_0_n_n_0_1_1128 vals
      (broadcastInDim S200000x1 ![0] bcast_S200000_S200000x1_0 (lastRow x1 x2)))
    x0

/-- The three operations of the clamp, respelt over plain references: each typed reference carries its own type, so the
    transports are identities. -/
theorem hostOps1_1_plain : (hostOps1_1 : List (HloOp τ sig (Elt Ideal))) =
    [ StableHlo.unary main_c_5 main_call0_v0 (id : (⟨S_, .i32⟩ : BufTy).Contents (Elt Ideal) → (⟨S_, .i32⟩ : BufTy).Contents (Elt Ideal)),
      StableHlo.unary main_call0_v0 main_call0_v1 (broadcastInDim S200000 ![] bcast_S_S200000 : (⟨S_, .i32⟩ : BufTy).Contents (Elt Ideal) → (⟨S200000, .i32⟩ : BufTy).Contents (Elt Ideal)),
      StableHlo.binary main_call0_v1 main_v40 main_v43 (maxsi : (⟨S200000, .i32⟩ : BufTy).Contents (Elt Ideal) → (⟨S200000, .i32⟩ : BufTy).Contents (Elt Ideal) → (⟨S200000, .i32⟩ : BufTy).Contents (Elt Ideal)) ] := rfl

/-- The two operations of the final choice, respelt over plain references. -/
theorem hostOps1_3_plain : (hostOps1_3 : List (HloOp τ sig (Elt Ideal))) =
    [ StableHlo.unary main_v51 main_call1_v0 (broadcastInDim S200000x128 ![0, 1] bcast_S200000x1_S200000x128_0_1 : (⟨S200000x1, .i1⟩ : BufTy).Contents (Elt Ideal) → (⟨S200000x128, .i1⟩ : BufTy).Contents (Elt Ideal)),
      StableHlo.ternary main_call1_v0 main_v50 main_arg0 main_v52 (select : (⟨S200000x128, .i1⟩ : BufTy).Contents (Elt Ideal) → (⟨S200000x128, .f32⟩ : BufTy).Contents (Elt Ideal) → (⟨S200000x128, .f32⟩ : BufTy).Contents (Elt Ideal) → (⟨S200000x128, .f32⟩ : BufTy).Contents (Elt Ideal)) ] := rfl

attribute [local irreducible] Host.gather Host.scatter in
/-- The last-writer vector as the operations leave it: the flattening of the two-column index matrix read at each
    position is the flattening itself. -/
theorem writer_eq (x1 x2 : (⟨S100000, .i32⟩ : BufTy).Contents (Elt Ideal)) :
    Host.scatter scatter_S200000_S200000x1_S200000_n_0_0_1 IntOp.maxsi
      (broadcastInDim S200000 ![] bcast_S_S200000 (constantI S_ 32 2147483648#32))
      (broadcastInDim S200000x1 ![0] bcast_S200000_S200000x1_0 fun i =>
        shapeCast main_v36.ty.shape
          (concatenate S100000x2 1
            [⟨S100000x1, broadcastInDim S100000x1 ![0] bcast_S100000_S100000x1_0 x2⟩,
             ⟨S100000x1, broadcastInDim S100000x1 ![0] bcast_S100000_S100000x1_0 x1⟩]
            concatenates_S100000x1_S100000x1_S100000x2_d1)
          shapeCasts_S100000x2_S200000 i)
      (iotaInDim S200000 32 0)
    = writer x1 x2 := rfl

attribute [local irreducible] Host.gather Host.scatter in
/-- The program's result array is `tail` of the region's result window (as the region leaves it), the node table and the
    two endpoint vectors as launched. The typed operations are respelt plainly, the fold over the twenty-eight
    operations is read off at the result, the valuation the region leaves is read at the result window (its own
    array) and at the three arguments (no array of the region, unwritten before it), and what is left is `tail`
    unfolded. -/
theorem tail_eq (c : Dev nD) :
    (Pipeline.afterTail₀ cfgs (dats (F := Ideal) m) 0 (V0 m) [hostOps1, hostOps1_1, hostOps1_2, hostOps1_3] c main_v52 : (⟨S200000x128, .f32⟩ : BufTy).Contents (Elt Ideal))
      = tail ((dats (F := Ideal) m 0 c).arrAt 16 cfg0.N) (m ((c : Thread nD τ).loc main_arg0)) (m ((c : Thread nD τ).loc main_arg1)) (m ((c : Thread nD τ).loc main_arg2)) := by
  have a0 : Pipeline.withArrays (cfgs 0).spec c (V0 m c) (fun w => (dats (F := Ideal) m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans (V_main_arg0 m c)
  have a1 : Pipeline.withArrays (cfgs 0).spec c (V0 m c) (fun w => (dats (F := Ideal) m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have a2 : Pipeline.withArrays (cfgs 0).spec c (V0 m c) (fun w => (dats (F := Ideal) m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have a32 : Pipeline.withArrays (cfgs 0).spec c (V0 m c) (fun w => (dats (F := Ideal) m 0 c).arrAt w (cfgs 0).N) (Proc.devRef .tc main_v32)
      = (dats (F := Ideal) m 0 c).arrAt 16 cfg0.N :=
    Pipeline.withArrays_arr spec0 launch0.win.arr_inj c _ _ 16
  unfold Pipeline.afterTail₀
  rw [hostOps1_1_plain, hostOps1_3_plain]
  simp only [hostOps1, hostOps1_2, List.flatten_cons, List.flatten_nil, List.append_nil, List.cons_append, List.nil_append]
  after_results_simp
  repeat (first | rw [unary_result] | (rw [unary_result_ne]; rotate_left; decide))
  rw [a0, a1, a2, a32]
  rw [writer_eq (m ((c : Thread nD τ).loc main_arg1)) (m ((c : Thread nD τ).loc main_arg2))]
  simp only [id_eq]
  unfold tail lastRow
  rfl

end Cert.KSide

end
-- ==== Proof.KRun.lean ====
/-
  The idealized kernel's run, with its result named.

  After the region the result array holds the interleaved per-edge updates (`Mlp.vals` of the two gathered row arrays and
  the remaining arguments); the host operations after the region apply the last-write-wins selection to it. So the
  program's result is that selection of the specification's array, and the arguments end as launched.
-/
import proofs.«120662_j70557722738855_2_alg».proof.Proof.KVals
import proofs.«120662_j70557722738855_2_alg».proof.Proof.KHost
import proofs.«120662_j70557722738855_2_alg».proof.Proof.KTail

set_option maxRecDepth 16384

noncomputable section

namespace Cert.KRun

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The result buffer after the host operations that follow the region. -/
theorem result (c : Dev nD) :
    Pipeline.afterTail₀ cfgs (dats (F := Ideal) m) 0 (V0 m) [hostOps1, hostOps1_1, hostOps1_2, hostOps1_3] c main_v52
      = Cert.KSide.tail (Cert.Mlp.vals (Cert.KSide.pick (m ((c : Thread nD τ).loc main_arg0)) (m ((c : Thread nD τ).loc main_arg1))) (Cert.KSide.pick (m ((c : Thread nD τ).loc main_arg0)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg0)) (m ((c : Thread nD τ).loc main_arg1)) (m ((c : Thread nD τ).loc main_arg2)) := by
  rw [Cert.KSide.tail_eq m c, Cert.KBlocks.final m c]
  unfold Cert.KBlocks.KG
  rw [Cert.KSide.V_v6 m c, Cert.KSide.V_v13 m c, V_main_arg3 m c, V_main_arg4 m c, Cert.KSide.V_v15 m c, Cert.KSide.V_v17 m c,
    Cert.KSide.V_v19 m c, Cert.KSide.V_v21 m c, Cert.KSide.V_v28 m c, Cert.KSide.V_v22 m c, Cert.KSide.V_v29 m c,
    Cert.KSide.V_v24 m c, Cert.KSide.V_v26 m c, Cert.KSide.V_v30 m c, Cert.KSide.V_v27 m c, Cert.KSide.V_v31 m c]
  exact congrArg (fun v => Cert.KSide.tail v _ _ _) (Cert.KVals.G_eq_vals _ _ _ _ _ _ _ _ _ _ _ _ _ _ _ _ _ _ _ _)

/-- Every weakly fair execution terminates with the result at the selection of the specification's array and the
    arguments unchanged. -/
theorem run : θ_run (defs (F := Ideal)) (onTc (τ := τ) (main (F := Ideal))) ⟨m, fun _ => 0, ρ⟩ (fun r => ∀ c : Dev nD,
      r.2.mem ((c.tc : Thread nD τ).loc main_v52) = Cert.KSide.tail (Cert.Mlp.vals (Cert.KSide.pick (m ((c : Thread nD τ).loc main_arg0)) (m ((c : Thread nD τ).loc main_arg1))) (Cert.KSide.pick (m ((c : Thread nD τ).loc main_arg0)) (m ((c : Thread nD τ).loc main_arg2))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_v52 (Pipeline.mem_restRefs_of main_v52 (by decide) (by decide))).trans (result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).1 2).trans (((dats m 0 c).arrAt_in 2 rfl _).trans ((A_eq m c 2).trans (V_main_arg3 m c)))),
      (((h c).1 3).trans (((dats m 0 c).arrAt_in 3 rfl _).trans ((A_eq m c 3).trans (V_main_arg4 m c)))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c))⟩) (run_main m ρ)

end Cert.KRun

end
-- ==== Proof.LibAfterAppend.lean ====
/-
  The contents after two lines of host operations run one after the other.

  The buffers' contents after a list of operations is a fold: each operation in turn rewrites the buffers it writes. Over a
  list that is one line followed by another, the fold is the second line's fold started from the first line's result. This
  lets a long line be read in stretches, the contents between two stretches named once. It holds over any signature and
  any value type.
-/
import Idealize.ShloMosaic.Lib.StableHlo.Run

noncomputable section

namespace Cert.Lib.AfterAppend

open Idealize.ShloMosaic Idealize.ShloMosaic.StableHlo

variable {τ : Topo} {sig : RefSig} {Val : EltTy → Type}

/-- After `l₁` followed by `l₂`: after `l₂`, from what `l₁` left. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend

end
-- ==== Proof.RefOps.lean ====
/-
  The reference program as one line of host operations, and its run.

  The program's body is a straight line: eighty-six host operations, the outlined functions' bodies written out at
  their five call sites over the call's own buffers. The line is cut into three stretches: the two row gathers, the
  two-layer networks with the interleave, and the last-write-wins tail. Every weakly fair execution terminates, and
  each buffer then holds the fold of the line's operations over the contents at launch.
-/
import proofs.«120662_j70557722738855_2_alg».proof.Proof.Gen.ReferenceIdeal
import proofs.«120662_j70557722738855_2_alg».proof.Proof.LibAfterAppend
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The first stretch: the two gathers of node-table rows, each preceded by the wrap of negative ids. -/
abbrev RefOpsP : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg1 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 200000#32),
    unary main_c_0 main_v2 (broadcastInDim S100000 ![] bcast_S_S100000 : (⟨S_, .i32⟩ : BufTy).Contents (Elt F) → (⟨S100000, .i32⟩ : BufTy).Contents (Elt F)),
    binary main_arg1 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg0 main_v5 main_v6 ((fun x i => Host.gather gather_S200000x128_S100000x1_S100000x128_1_0_n_n_0_1_1128 x i) : (⟨S200000x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_arg2 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 200000#32),
    unary main_c_2 main_v9 (broadcastInDim S100000 ![] bcast_S_S100000 : (⟨S_, .i32⟩ : BufTy).Contents (Elt F) → (⟨S100000, .i32⟩ : BufTy).Contents (Elt F)),
    binary main_arg2 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_arg2 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg0 main_v12 main_v13 ((fun x i => Host.gather gather_S200000x128_S100000x1_S100000x128_1_0_n_n_0_1_1128 x i) : (⟨S200000x128, .f32⟩ : BufTy).Contents (Elt F) → (⟨S100000x1, .i32⟩ : BufTy).Contents (Elt F) → (⟨S100000x128, .f32⟩ : BufTy).Contents (Elt F)) ]

/-- The second stretch: the message network, the two update networks, and the interleave of their results. -/
abbrev RefOpsM : List (HloOp τ sig (Elt F)) :=
  [ nary ![main_v6, main_v13, main_arg3, main_arg4] main_v14 (fun u => concatenate S100000x528 1 [⟨S100000x128, u 0⟩, ⟨S100000x128, u 1⟩, ⟨S100000x172, u 2⟩, ⟨S100000x100, u 3⟩] concatenates_S100000x128_S100000x128_S100000x172_S100000x100_S100000x528_d1),
    binary main_v14 main_arg5 main_v15 ((fun l r => Host.dotGeneral dot_S100000x528_S528x128_S100000x128_1_0_0_1_n_n none l r) : (⟨S100000x528, .f32⟩ : BufTy).Contents (Elt F) → (⟨S528x128, .f32⟩ : BufTy).Contents (Elt F) → (⟨S100000x128, .f32⟩ : BufTy).Contents (Elt F)),
    unary main_arg6 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v18 : TRef sig ⟨S100000x128, .f32⟩) main_call0.v0 main_call0.v1 maximumf,
    binary main_v19 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    binary main_v13 main_v23 main_v24 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v24 main_arg9 main_v25 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v28 : TRef sig ⟨S100000x128, .f32⟩) main_call1.v0 main_call1.v1 maximumf,
    binary main_v29 main_arg11 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    binary main_v6 main_v23 main_v34 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v34 main_arg9 main_v35 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v38 : TRef sig ⟨S100000x128, .f32⟩) main_call2.v0 main_call2.v1 maximumf,
    binary main_v39 main_arg11 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    unary main_v33 main_v44 (broadcastInDim S100000x1x128 ![0, 2] bcast_S100000x128_S100000x1x128_0_2 : (⟨S100000x128, .f32⟩ : BufTy).Contents (Elt F) → (⟨S100000x1x128, .f32⟩ : BufTy).Contents (Elt F)),
    unary main_v43 main_v45 (broadcastInDim S100000x1x128 ![0, 2] bcast_S100000x128_S100000x1x128_0_2 : (⟨S100000x128, .f32⟩ : BufTy).Contents (Elt F) → (⟨S100000x1x128, .f32⟩ : BufTy).Contents (Elt F)),
    binary main_v44 main_v45 main_v46 ((fun a b => concatenate S100000x2x128 1 [⟨S100000x1x128, a⟩, ⟨S100000x1x128, b⟩] concatenates_S100000x1x128_S100000x1x128_S100000x2x128_d1) : (⟨S100000x1x128, .f32⟩ : BufTy).Contents (Elt F) → (⟨S100000x1x128, .f32⟩ : BufTy).Contents (Elt F) → (⟨S100000x2x128, .f32⟩ : BufTy).Contents (Elt F)),
    reshape main_v46 main_v47 rfl shapeCasts_S100000x2x128_S200000x128 ]

/-- The third stretch: the last-write-wins tail. -/
abbrev RefOpsT : List (HloOp τ sig (Elt F)) :=
  [ unary main_arg2 main_v48 (broadcastInDim S100000x1 ![0] bcast_S100000_S100000x1_0 : (⟨S100000, .i32⟩ : BufTy).Contents (Elt F) → (⟨S100000x1, .i32⟩ : BufTy).Contents (Elt F)),
    unary main_arg1 main_v49 (broadcastInDim S100000x1 ![0] bcast_S100000_S100000x1_0 : (⟨S100000, .i32⟩ : BufTy).Contents (Elt F) → (⟨S100000x1, .i32⟩ : BufTy).Contents (Elt F)),
    binary main_v48 main_v49 main_v50 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    reshape main_v50 main_v51 rfl shapeCasts_S100000x2_S200000,
    nullary main_v52 (iotaInDim S200000 32 0),
    nullary main_c_3 (constantI S_ 32 2147483648#32),
    unary main_c_3 main_v53 (broadcastInDim S200000 ![] bcast_S_S200000 : (⟨S_, .i32⟩ : BufTy).Contents (Elt F) → (⟨S200000, .i32⟩ : BufTy).Contents (Elt F)),
    unary main_v51 main_v54 (broadcastInDim S200000x1 ![0] bcast_S200000_S200000x1_0 : (⟨S200000, .i32⟩ : BufTy).Contents (Elt F) → (⟨S200000x1, .i32⟩ : BufTy).Contents (Elt F)),
    ternary main_v53 main_v54 main_v52 main_v55 ((fun x i u => Host.scatter scatter_S200000_S200000x1_S200000_n_0_0_1 IntOp.maxsi x i u) : (⟨S200000, .i32⟩ : BufTy).Contents (Elt F) → (⟨S200000x1, .i32⟩ : BufTy).Contents (Elt F) → (⟨S200000, .i32⟩ : BufTy).Contents (Elt F) → (⟨S200000, .i32⟩ : BufTy).Contents (Elt F)),
    nullary main_c_4 (constantI S_ 32 0#32),
    unary main_c_4 main_v56 (broadcastInDim S200000 ![] bcast_S_S200000 : (⟨S_, .i32⟩ : BufTy).Contents (Elt F) → (⟨S200000, .i32⟩ : BufTy).Contents (Elt F)),
    binary main_v55 main_v56 main_v57 (cmpi .sge : (⟨S200000, .i32⟩ : BufTy).Contents (Elt F) → (⟨S200000, .i32⟩ : BufTy).Contents (Elt F) → (⟨S200000, .i1⟩ : BufTy).Contents (Elt F)),
    nullary main_c_5 (constantI S_ 32 0#32),
    TRef.unary (.of main_c_5 : TRef sig ⟨S_, .i32⟩) main_call3.v0 id,
    TRef.unary main_call3.v0 main_call3.v1 (broadcastInDim S200000 ![] bcast_S_S200000),
    TRef.binary main_call3.v1 (.of main_v55 : TRef sig ⟨S200000, .i32⟩) main_call3.v2 maxsi,
    nullary main_c_6 (constantI S_ 32 0#32),
    unary main_c_6 main_v59 (broadcastInDim S200000 ![] bcast_S_S200000 : (⟨S_, .i32⟩ : BufTy).Contents (Elt F) → (⟨S200000, .i32⟩ : BufTy).Contents (Elt F)),
    binary main_v58 main_v59 main_v60 (cmpi .slt : (⟨S200000, .i32⟩ : BufTy).Contents (Elt F) → (⟨S200000, .i32⟩ : BufTy).Contents (Elt F) → (⟨S200000, .i1⟩ : BufTy).Contents (Elt F)),
    nullary main_c_7 (constantI S_ 32 200000#32),
    unary main_c_7 main_v61 (broadcastInDim S200000 ![] bcast_S_S200000 : (⟨S_, .i32⟩ : BufTy).Contents (Elt F) → (⟨S200000, .i32⟩ : BufTy).Contents (Elt F)),
    binary main_v58 main_v61 main_v62 (addi : (⟨S200000, .i32⟩ : BufTy).Contents (Elt F) → (⟨S200000, .i32⟩ : BufTy).Contents (Elt F) → (⟨S200000, .i32⟩ : BufTy).Contents (Elt F)),
    ternary main_v60 main_v62 main_v58 main_v63 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v63 main_v64 (broadcastInDim S200000x1 ![0] bcast_S200000_S200000x1_0 : (⟨S200000, .i32⟩ : BufTy).Contents (Elt F) → (⟨S200000x1, .i32⟩ : BufTy).Contents (Elt F)),
    binary main_v47 main_v64 main_v65 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    unary main_v57 main_v66 (broadcastInDim S200000x1 ![0] bcast_S200000_S200000x1_0 : (⟨S200000, .i1⟩ : BufTy).Contents (Elt F) → (⟨S200000x1, .i1⟩ : BufTy).Contents (Elt F)),
    TRef.unary (.of main_v66 : TRef sig ⟨S200000x1, .i1⟩) main_call4.v0 (broadcastInDim S200000x128 ![0, 1] bcast_S200000x1_S200000x128_0_1),
    TRef.ternary main_call4.v0 (.of main_v65 : TRef sig ⟨S200000x128, .f32⟩) (.of main_arg0 : TRef sig ⟨S200000x128, .f32⟩) main_call4.v1 select ]

/-- The whole line, in order. -/
abbrev RefOps : List (HloOp τ sig (Elt F)) :=
  [ nullary main_c (constantI S_ 32 0#32),
    unary main_c main_v0 (broadcastInDim S100000 ![] bcast_S_S100000 : (⟨S_, .i32⟩ : BufTy).Contents (Elt F) → (⟨S100000, .i32⟩ : BufTy).Contents (Elt F)),
    binary main_arg1 main_v0 main_v1 (cmpi .slt : (⟨S100000, .i32⟩ : BufTy).Contents (Elt F) → (⟨S100000, .i32⟩ : BufTy).Contents (Elt F) → (⟨S100000, .i1⟩ : BufTy).Contents (Elt F)),
    nullary main_c_0 (constantI S_ 32 200000#32),
    unary main_c_0 main_v2 (broadcastInDim S100000 ![] bcast_S_S100000 : (⟨S_, .i32⟩ : BufTy).Contents (Elt F) → (⟨S100000, .i32⟩ : BufTy).Contents (Elt F)),
    binary main_arg1 main_v2 main_v3 (addi : (⟨S100000, .i32⟩ : BufTy).Contents (Elt F) → (⟨S100000, .i32⟩ : BufTy).Contents (Elt F) → (⟨S100000, .i32⟩ : BufTy).Contents (Elt F)),
    ternary main_v1 main_v3 main_arg1 main_v4 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v4 main_v5 (broadcastInDim S100000x1 ![0] bcast_S100000_S100000x1_0 : (⟨S100000, .i32⟩ : BufTy).Contents (Elt F) → (⟨S100000x1, .i32⟩ : BufTy).Contents (Elt F)),
    binary main_arg0 main_v5 main_v6 ((fun x i => Host.gather gather_S200000x128_S100000x1_S100000x128_1_0_n_n_0_1_1128 x i) : (⟨S200000x128, .f32⟩ : BufTy).Contents (Elt F) → (⟨S100000x1, .i32⟩ : BufTy).Contents (Elt F) → (⟨S100000x128, .f32⟩ : BufTy).Contents (Elt F)),
    nullary main_c_1 (constantI S_ 32 0#32),
    unary main_c_1 main_v7 (broadcastInDim S100000 ![] bcast_S_S100000 : (⟨S_, .i32⟩ : BufTy).Contents (Elt F) → (⟨S100000, .i32⟩ : BufTy).Contents (Elt F)),
    binary main_arg2 main_v7 main_v8 (cmpi .slt : (⟨S100000, .i32⟩ : BufTy).Contents (Elt F) → (⟨S100000, .i32⟩ : BufTy).Contents (Elt F) → (⟨S100000, .i1⟩ : BufTy).Contents (Elt F)),
    nullary main_c_2 (constantI S_ 32 200000#32),
    unary main_c_2 main_v9 (broadcastInDim S100000 ![] bcast_S_S100000 : (⟨S_, .i32⟩ : BufTy).Contents (Elt F) → (⟨S100000, .i32⟩ : BufTy).Contents (Elt F)),
    binary main_arg2 main_v9 main_v10 (addi : (⟨S100000, .i32⟩ : BufTy).Contents (Elt F) → (⟨S100000, .i32⟩ : BufTy).Contents (Elt F) → (⟨S100000, .i32⟩ : BufTy).Contents (Elt F)),
    ternary main_v8 main_v10 main_arg2 main_v11 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v11 main_v12 (broadcastInDim S100000x1 ![0] bcast_S100000_S100000x1_0 : (⟨S100000, .i32⟩ : BufTy).Contents (Elt F) → (⟨S100000x1, .i32⟩ : BufTy).Contents (Elt F)),
    binary main_arg0 main_v12 main_v13 ((fun x i => Host.gather gather_S200000x128_S100000x1_S100000x128_1_0_n_n_0_1_1128 x i) : (⟨S200000x128, .f32⟩ : BufTy).Contents (Elt F) → (⟨S100000x1, .i32⟩ : BufTy).Contents (Elt F) → (⟨S100000x128, .f32⟩ : BufTy).Contents (Elt F)),
    nary ![main_v6, main_v13, main_arg3, main_arg4] main_v14 (fun u => concatenate S100000x528 1 [⟨S100000x128, u 0⟩, ⟨S100000x128, u 1⟩, ⟨S100000x172, u 2⟩, ⟨S100000x100, u 3⟩] concatenates_S100000x128_S100000x128_S100000x172_S100000x100_S100000x528_d1),
    binary main_v14 main_arg5 main_v15 ((fun l r => Host.dotGeneral dot_S100000x528_S528x128_S100000x128_1_0_0_1_n_n none l r) : (⟨S100000x528, .f32⟩ : BufTy).Contents (Elt F) → (⟨S528x128, .f32⟩ : BufTy).Contents (Elt F) → (⟨S100000x128, .f32⟩ : BufTy).Contents (Elt F)),
    unary main_arg6 main_v16 (broadcastInDim S1x128 ![1] bcast_S128_S1x128_1 : (⟨S128, .f32⟩ : BufTy).Contents (Elt F) → (⟨S1x128, .f32⟩ : BufTy).Contents (Elt F)),
    unary main_v16 main_v17 (broadcastInDim S100000x128 ![0, 1] bcast_S1x128_S100000x128_0_1 : (⟨S1x128, .f32⟩ : BufTy).Contents (Elt F) → (⟨S100000x128, .f32⟩ : BufTy).Contents (Elt F)),
    binary main_v15 main_v17 main_v18 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v18 : TRef sig ⟨S100000x128, .f32⟩) main_call0.v0 main_call0.v1 maximumf,
    binary main_v19 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    binary main_v13 main_v23 main_v24 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v24 main_arg9 main_v25 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v28 : TRef sig ⟨S100000x128, .f32⟩) main_call1.v0 main_call1.v1 maximumf,
    binary main_v29 main_arg11 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v30 main_v32 main_v33 (addf : (⟨S100000x128, .f32⟩ : BufTy).Contents (Elt F) → (⟨S100000x128, .f32⟩ : BufTy).Contents (Elt F) → (⟨S100000x128, .f32⟩ : BufTy).Contents (Elt F)),
    binary main_v6 main_v23 main_v34 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v34 main_arg9 main_v35 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg10 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v38 : TRef sig ⟨S100000x128, .f32⟩) main_call2.v0 main_call2.v1 maximumf,
    binary main_v39 main_arg11 main_v40 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg12 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    unary main_v33 main_v44 (broadcastInDim S100000x1x128 ![0, 2] bcast_S100000x128_S100000x1x128_0_2 : (⟨S100000x128, .f32⟩ : BufTy).Contents (Elt F) → (⟨S100000x1x128, .f32⟩ : BufTy).Contents (Elt F)),
    unary main_v43 main_v45 (broadcastInDim S100000x1x128 ![0, 2] bcast_S100000x128_S100000x1x128_0_2 : (⟨S100000x128, .f32⟩ : BufTy).Contents (Elt F) → (⟨S100000x1x128, .f32⟩ : BufTy).Contents (Elt F)),
    binary main_v44 main_v45 main_v46 ((fun a b => concatenate S100000x2x128 1 [⟨S100000x1x128, a⟩, ⟨S100000x1x128, b⟩] concatenates_S100000x1x128_S100000x1x128_S100000x2x128_d1) : (⟨S100000x1x128, .f32⟩ : BufTy).Contents (Elt F) → (⟨S100000x1x128, .f32⟩ : BufTy).Contents (Elt F) → (⟨S100000x2x128, .f32⟩ : BufTy).Contents (Elt F)),
    reshape main_v46 main_v47 rfl shapeCasts_S100000x2x128_S200000x128,
    unary main_arg2 main_v48 (broadcastInDim S100000x1 ![0] bcast_S100000_S100000x1_0 : (⟨S100000, .i32⟩ : BufTy).Contents (Elt F) → (⟨S100000x1, .i32⟩ : BufTy).Contents (Elt F)),
    unary main_arg1 main_v49 (broadcastInDim S100000x1 ![0] bcast_S100000_S100000x1_0 : (⟨S100000, .i32⟩ : BufTy).Contents (Elt F) → (⟨S100000x1, .i32⟩ : BufTy).Contents (Elt F)),
    binary main_v48 main_v49 main_v50 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    reshape main_v50 main_v51 rfl shapeCasts_S100000x2_S200000,
    nullary main_v52 (iotaInDim S200000 32 0),
    nullary main_c_3 (constantI S_ 32 2147483648#32),
    unary main_c_3 main_v53 (broadcastInDim S200000 ![] bcast_S_S200000 : (⟨S_, .i32⟩ : BufTy).Contents (Elt F) → (⟨S200000, .i32⟩ : BufTy).Contents (Elt F)),
    unary main_v51 main_v54 (broadcastInDim S200000x1 ![0] bcast_S200000_S200000x1_0 : (⟨S200000, .i32⟩ : BufTy).Contents (Elt F) → (⟨S200000x1, .i32⟩ : BufTy).Contents (Elt F)),
    ternary main_v53 main_v54 main_v52 main_v55 ((fun x i u => Host.scatter scatter_S200000_S200000x1_S200000_n_0_0_1 IntOp.maxsi x i u) : (⟨S200000, .i32⟩ : BufTy).Contents (Elt F) → (⟨S200000x1, .i32⟩ : BufTy).Contents (Elt F) → (⟨S200000, .i32⟩ : BufTy).Contents (Elt F) → (⟨S200000, .i32⟩ : BufTy).Contents (Elt F)),
    nullary main_c_4 (constantI S_ 32 0#32),
    unary main_c_4 main_v56 (broadcastInDim S200000 ![] bcast_S_S200000 : (⟨S_, .i32⟩ : BufTy).Contents (Elt F) → (⟨S200000, .i32⟩ : BufTy).Contents (Elt F)),
    binary main_v55 main_v56 main_v57 (cmpi .sge : (⟨S200000, .i32⟩ : BufTy).Contents (Elt F) → (⟨S200000, .i32⟩ : BufTy).Contents (Elt F) → (⟨S200000, .i1⟩ : BufTy).Contents (Elt F)),
    nullary main_c_5 (constantI S_ 32 0#32),
    TRef.unary (.of main_c_5 : TRef sig ⟨S_, .i32⟩) main_call3.v0 id,
    TRef.unary main_call3.v0 main_call3.v1 (broadcastInDim S200000 ![] bcast_S_S200000),
    TRef.binary main_call3.v1 (.of main_v55 : TRef sig ⟨S200000, .i32⟩) main_call3.v2 maxsi,
    nullary main_c_6 (constantI S_ 32 0#32),
    unary main_c_6 main_v59 (broadcastInDim S200000 ![] bcast_S_S200000 : (⟨S_, .i32⟩ : BufTy).Contents (Elt F) → (⟨S200000, .i32⟩ : BufTy).Contents (Elt F)),
    binary main_v58 main_v59 main_v60 (cmpi .slt : (⟨S200000, .i32⟩ : BufTy).Contents (Elt F) → (⟨S200000, .i32⟩ : BufTy).Contents (Elt F) → (⟨S200000, .i1⟩ : BufTy).Contents (Elt F)),
    nullary main_c_7 (constantI S_ 32 200000#32),
    unary main_c_7 main_v61 (broadcastInDim S200000 ![] bcast_S_S200000 : (⟨S_, .i32⟩ : BufTy).Contents (Elt F) → (⟨S200000, .i32⟩ : BufTy).Contents (Elt F)),
    binary main_v58 main_v61 main_v62 (addi : (⟨S200000, .i32⟩ : BufTy).Contents (Elt F) → (⟨S200000, .i32⟩ : BufTy).Contents (Elt F) → (⟨S200000, .i32⟩ : BufTy).Contents (Elt F)),
    ternary main_v60 main_v62 main_v58 main_v63 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v63 main_v64 (broadcastInDim S200000x1 ![0] bcast_S200000_S200000x1_0 : (⟨S200000, .i32⟩ : BufTy).Contents (Elt F) → (⟨S200000x1, .i32⟩ : BufTy).Contents (Elt F)),
    binary main_v47 main_v64 main_v65 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    unary main_v57 main_v66 (broadcastInDim S200000x1 ![0] bcast_S200000_S200000x1_0 : (⟨S200000, .i1⟩ : BufTy).Contents (Elt F) → (⟨S200000x1, .i1⟩ : BufTy).Contents (Elt F)),
    TRef.unary (.of main_v66 : TRef sig ⟨S200000x1, .i1⟩) main_call4.v0 (broadcastInDim S200000x128 ![0, 1] bcast_S200000x1_S200000x128_0_1),
    TRef.ternary main_call4.v0 (.of main_v65 : TRef sig ⟨S200000x128, .f32⟩) (.of main_arg0 : TRef sig ⟨S200000x128, .f32⟩) main_call4.v1 select ]

/-- The line is its three stretches, one after the other. -/
theorem RefOps_eq : (RefOps : List (HloOp τ sig (Elt F))) = RefOpsP ++ (RefOpsM ++ RefOpsT) := rfl

set_option maxRecDepth 65536 in
set_option maxHeartbeats 4000000 in
/-- The program's body is that line: the functions' definitions opened at their calls, sequencing reassociated. -/
theorem Ref_main_eq (c : Dev nD) : main (F := F) c = seq RefOps := by
  simp only [main, main_part0, main_part1, fn_relu.body, fn_clip.body, fn_where.body, seq, bind_assoc, pure_bind]

theorem Ref_scopedRefs_eq : (Finset.univ.filter fun b : Ref sig .tc => b.isScoped) = ∅ := by decide
theorem Ref_scopedSems_eq : (Finset.univ.filter fun sm : SemLoc sig => sm.isScoped .tc) = ∅ := by decide

theorem RefOps_sub : (RefOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., reshape_bufs_sub .., unary_bufs_sub .., unary_bufs_sub .., binary_bufs_sub .., reshape_bufs_sub .., nullary_bufs_sub .., nullary_bufs_sub .., unary_bufs_sub .., unary_bufs_sub .., ternary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., ternary_bufs_sub ..⟩

set_option maxRecDepth 65536 in
set_option maxHeartbeats 4000000 in
/-- From any memory with zero counters: every weakly fair execution of the program terminates, and every final state
    has each buffer at the fold of the line's operations over the contents at launch. -/
theorem Ref_run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after RefOps (launchContents m c) (b : DevRef τ sig) :=
  run_seq Ref_scopedRefs_eq Ref_scopedSems_eq defs main (fun _ => RefOps) Ref_main_eq (fun _ => RefOps_sub) m ρ

end Cert.RefSide

end
-- ==== Proof.RefTerms.lean ====
/-
  The reference program's three stretches as functions of what they read.

  The first stretch gathers the rows of the node table named by a vector of node ids (a negative id wrapped by the
  table's height). The second computes, from the two gathered row arrays and the parameters, the interleaved array of
  per-edge updates. The third is the last-write-wins tail: from the ids it finds, per node, the last position in the
  interleaved order at which the node occurs, reads the update there, and keeps the node's old row where it never occurs.
  Each stretch's fold over any contents is the stretch's function of the buffers it reads; a buffer the line never
  writes keeps its contents.
-/
import proofs.«120662_j70557722738855_2_alg».proof.Proof.RefOps
import Idealize.ShloMosaic.PureOps.Ideal

noncomputable section

namespace Cert.RefSide

open Cert.ReferenceIdeal Cert.ReferenceIdeal.Gen Idealize.ShloMosaic Idealize.ShloMosaic.TcCoe Idealize.SL.Sem Idealize.ShloMosaic.StableHlo

/-! ## The stretches' functions -/

/-- rows of the node table named by a vector of node ids, as the program computes them (a negative id wraps by 200000) -/
def pick (x0 : (⟨S200000x128, .f32⟩ : BufTy).Contents (Elt Ideal)) (ids : (⟨S100000, .i32⟩ : BufTy).Contents (Elt Ideal)) :
    (⟨S100000x128, .f32⟩ : BufTy).Contents (Elt Ideal) :=
  Host.gather gather_S200000x128_S100000x1_S100000x128_1_0_n_n_0_1_1128 x0
    (broadcastInDim S100000x1 ![0] bcast_S100000_S100000x1_0
      (select (cmpi .slt ids (broadcastInDim S100000 ![] bcast_S_S100000 (constantI S_ 32 0#32)))
        (addi ids (broadcastInDim S100000 ![] bcast_S_S100000 (constantI S_ 32 200000#32))) ids))

/-- A bias vector as a [100000, 128] array: every row is the vector. -/
def RefBias (b : (⟨S128, .f32⟩ : BufTy).Contents (Elt Ideal)) : (⟨S100000x128, .f32⟩ : BufTy).Contents (Elt Ideal) :=
  broadcastInDim S100000x128 ![0, 1] bcast_S1x128_S100000x128_0_1 (broadcastInDim S1x128 ![1] bcast_S128_S1x128_1 b)

/-- The clamp at the float zero, entry by entry. -/
def RefRelu (x : (⟨S100000x128, .f32⟩ : BufTy).Contents (Elt Ideal)) : (⟨S100000x128, .f32⟩ : BufTy).Contents (Elt Ideal) :=
  maximumf (F := Ideal) (φ := .f32) x (broadcastInDim S100000x128 ![] bcast_S_S100000x128 (constant (F := Ideal) S_ .f32 0x00000000#32))

/-- The message rows: the two-layer network on the concatenated row [source, destination, edge features, time features]. -/
def RefMsg (S D : (⟨S100000x128, .f32⟩ : BufTy).Contents (Elt Ideal)) (EF : (⟨S100000x172, .f32⟩ : BufTy).Contents (Elt Ideal)) (TF : (⟨S100000x100, .f32⟩ : BufTy).Contents (Elt Ideal))
    (W1 : (⟨S528x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal)) :
    (⟨S100000x128, .f32⟩ : BufTy).Contents (Elt Ideal) :=
  addf (F := Ideal) (φ := .f32) (Host.dotGeneral (F := Ideal) (φ₁ := .f32) (φ₂ := .f32) dot_S100000x128_S128x128_S100000x128_1_0_0_1_n_n none
    (RefRelu (addf (F := Ideal) (φ := .f32) (Host.dotGeneral (F := Ideal) (φ₁ := .f32) (φ₂ := .f32) dot_S100000x528_S528x128_S100000x128_1_0_0_1_n_n none
      (concatenate S100000x528 1 [⟨S100000x128, S⟩, ⟨S100000x128, D⟩, ⟨S100000x172, EF⟩, ⟨S100000x100, TF⟩]
        concatenates_S100000x128_S100000x128_S100000x172_S100000x100_S100000x528_d1) W1) (RefBias b1))) W2) (RefBias b2)

/-- The update rows of the endpoint whose rows are `X`, from the message rows `g`: the two-layer network on [X, g]. -/
def RefUpd (X g : (⟨S100000x128, .f32⟩ : BufTy).Contents (Elt Ideal)) (U1 : (⟨S256x128, .f32⟩ : BufTy).Contents (Elt Ideal)) (ub1 : (⟨S128, .f32⟩ : BufTy).Contents (Elt Ideal))
    (U2 : (⟨S128x128, .f32⟩ : BufTy).Contents (Elt Ideal)) (ub2 : (⟨S128, .f32⟩ : BufTy).Contents (Elt Ideal)) : (⟨S100000x128, .f32⟩ : BufTy).Contents (Elt Ideal) :=
  addf (F := Ideal) (φ := .f32) (Host.dotGeneral (F := Ideal) (φ₁ := .f32) (φ₂ := .f32) dot_S100000x128_S128x128_S100000x128_1_0_0_1_n_n none
    (RefRelu (addf (F := Ideal) (φ := .f32) (Host.dotGeneral (F := Ideal) (φ₁ := .f32) (φ₂ := .f32) dot_S100000x256_S256x128_S100000x128_1_0_0_1_n_n none
      (concatenate S100000x256 1 [⟨S100000x128, X⟩, ⟨S100000x128, g⟩] concatenates_S100000x128_S100000x128_S100000x256_d1) U1)
      (RefBias ub1))) U2) (RefBias ub2)

/-- Two [100000, 128] arrays interleaved row by row into one [200000, 128] array: stacked on a new middle axis, then
    the first two axes merged. -/
def RefWeave (a b : (⟨S100000x128, .f32⟩ : BufTy).Contents (Elt Ideal)) : (⟨S200000x128, .f32⟩ : BufTy).Contents (Elt Ideal) :=
  shapeCast S200000x128
    (concatenate S100000x2x128 1
      [⟨S100000x1x128, broadcastInDim S100000x1x128 ![0, 2] bcast_S100000x128_S100000x1x128_0_2 a⟩,
       ⟨S100000x1x128, broadcastInDim S100000x1x128 ![0, 2] bcast_S100000x128_S100000x1x128_0_2 b⟩]
      concatenates_S100000x1x128_S100000x1x128_S100000x2x128_d1)
    shapeCasts_S100000x2x128_S200000x128

/-- The interleaved per-edge updates as the program computes them from the gathered source rows `S` and
    destination rows `D`: row 2e the destination's update of edge e, row 2e+1 the source's. -/
def RefVals (S D : (⟨S100000x128, .f32⟩ : BufTy).Contents (Elt Ideal)) (EF : (⟨S100000x172, .f32⟩ : BufTy).Contents (Elt Ideal)) (TF : (⟨S100000x100, .f32⟩ : BufTy).Contents (Elt Ideal))
    (W1 : (⟨S528x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (U1 : (⟨S256x128, .f32⟩ : BufTy).Contents (Elt Ideal)) (ub1 : (⟨S128, .f32⟩ : BufTy).Contents (Elt Ideal)) (U2 : (⟨S128x128, .f32⟩ : BufTy).Contents (Elt Ideal)) (ub2 : (⟨S128, .f32⟩ : BufTy).Contents (Elt Ideal)) :
    (⟨S200000x128, .f32⟩ : BufTy).Contents (Elt Ideal) :=
  RefWeave (RefUpd D (RefMsg S D EF TF W1 b1 W2 b2) U1 ub1 U2 ub2) (RefUpd S (RefMsg S D EF TF W1 b1 W2 b2) U1 ub1 U2 ub2)

/-- The node ids in the interleaved order: entry 2e the destination of edge e, entry 2e+1 its source. -/
def RefIds (x1 x2 : (⟨S100000, .i32⟩ : BufTy).Contents (Elt Ideal)) : (⟨S200000, .i32⟩ : BufTy).Contents (Elt Ideal) :=
  shapeCast S200000
    (concatenate S100000x2 1
      [⟨S100000x1, broadcastInDim S100000x1 ![0] bcast_S100000_S100000x1_0 x2⟩,
       ⟨S100000x1, broadcastInDim S100000x1 ![0] bcast_S100000_S100000x1_0 x1⟩]
      concatenates_S100000x1_S100000x1_S100000x2_d1)
    shapeCasts_S100000x2_S200000

/-- Per node, the largest position in the interleaved order at which the node occurs (the least integer where it never does). -/
def RefLast (x1 x2 : (⟨S100000, .i32⟩ : BufTy).Contents (Elt Ideal)) : (⟨S200000, .i32⟩ : BufTy).Contents (Elt Ideal) :=
  Host.scatter scatter_S200000_S200000x1_S200000_n_0_0_1 IntOp.maxsi
    (broadcastInDim S200000 ![] bcast_S_S200000 (constantI S_ 32 2147483648#32))
    (broadcastInDim S200000x1 ![0] bcast_S200000_S200000x1_0 (RefIds x1 x2))
    (iotaInDim S200000 32 0)

/-- That position clamped below at zero. -/
def RefClip (x1 x2 : (⟨S100000, .i32⟩ : BufTy).Contents (Elt Ideal)) : (⟨S200000, .i32⟩ : BufTy).Contents (Elt Ideal) :=
  maxsi (broadcastInDim S200000 ![] bcast_S_S200000 (constantI S_ 32 0#32)) (RefLast x1 x2)

/-- the last-write-wins tail: operations %48 … %67 as ONE function of vals (%47) and the arguments %arg0, %arg1, %arg2 -/
def tail (vals x0 : (⟨S200000x128, .f32⟩ : BufTy).Contents (Elt Ideal)) (x1 x2 : (⟨S100000, .i32⟩ : BufTy).Contents (Elt Ideal)) :
    (⟨S200000x128, .f32⟩ : BufTy).Contents (Elt Ideal) :=
  select
    (broadcastInDim S200000x128 ![0, 1] bcast_S200000x1_S200000x128_0_1
      (broadcastInDim S200000x1 ![0] bcast_S200000_S200000x1_0
        (cmpi .sge (RefLast x1 x2) (broadcastInDim S200000 ![] bcast_S_S200000 (constantI S_ 32 0#32)))))
    (Host.gather gather_S200000x128_S200000x1_S200000x128_1_0_n_n_0_1_1128 vals
      (broadcastInDim S200000x1 ![0] bcast_S200000_S200000x1_0
        (select (cmpi .slt (RefClip x1 x2) (broadcastInDim S200000 ![] bcast_S_S200000 (constantI S_ 32 0#32)))
          (addi (RefClip x1 x2) (broadcastInDim S200000 ![] bcast_S_S200000 (constantI S_ 32 200000#32)))
          (RefClip x1 x2))))
    x0

end Cert.RefSide

end
-- ==== Proof.RefStretch.lean ====
/-
  The first two stretches' folds as functions of what they read, and the buffers the line never writes.

  Each stretch's fold over any contents, read at the buffer the next stretch reads, is the stretch's function of the
  contents at the buffers it reads. A buffer that is the result of no operation of the line keeps its contents through
  any part of the line: the arguments are such buffers.
-/
import proofs.«120662_j70557722738855_2_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

section Kept

variable {F : FTy → Type} [FloatOps F]

/-- Every buffer the line writes: the results of its operations, in order. -/
abbrev RefWritten : List (Ref sig .tc) :=
  [ main_c, main_v0, main_v1, main_c_0, main_v2, main_v3, main_v4, main_v5,
    main_v6, main_c_1, main_v7, main_v8, main_c_2, main_v9, main_v10, main_v11,
    main_v12, main_v13, main_v14, main_v15, main_v16, main_v17, main_v18, main_call0_cst,
    main_call0_v0, main_v19, main_v20, main_v21, main_v22, main_v23, main_v24, main_v25,
    main_v26, main_v27, main_v28, main_call1_cst, main_call1_v0, main_v29, main_v30, main_v31,
    main_v32, main_v33, main_v34, main_v35, main_v36, main_v37, main_v38, main_call2_cst,
    main_call2_v0, main_v39, main_v40, main_v41, main_v42, main_v43, main_v44, main_v45,
    main_v46, main_v47, main_v48, main_v49, main_v50, main_v51, main_v52, main_c_3,
    main_v53, main_v54, main_v55, main_c_4, main_v56, main_v57, main_c_5, main_call3_v0,
    main_call3_v1, main_v58, main_c_6, main_v59, main_v60, main_c_7, main_v61, main_v62,
    main_v63, main_v64, main_v65, main_v66, main_call4_v0, main_v67 ]

set_option maxRecDepth 65536 in
set_option maxHeartbeats 4000000 in
/-- Each operation of the line writes only its own result, which is in that list. -/
theorem RefOps_writes :
    (RefOps : List (HloOp τ sig (Elt F))).Forall fun op => op.writes ⊆ (RefWritten.map (Proc.devRef (τ := τ) .tc)).toFinset := by
  simp only [List.Forall, nullary_writes, unary_writes, binary_writes, ternary_writes, nary_writes, reshape_writes,
    Finset.singleton_subset_iff, List.mem_toFinset]
  repeat' apply And.intro
  all_goals exact List.mem_map_of_mem (by decide)

/-- A buffer the line never writes keeps its contents through any part of the line. -/
theorem Ref_keep (L : List (HloOp τ sig (Elt F))) (hL : ∀ op ∈ L, op ∈ (RefOps : List (HloOp τ sig (Elt F))))
    (W : Valuation τ sig (Elt F)) {r : Ref sig .tc} (hr : r ∉ RefWritten) :
    after L W (Proc.devRef .tc r) = W (Proc.devRef .tc r) :=
  after_of_writes_sub L W
    (List.forall_iff_forall_mem.mpr fun op h => List.forall_iff_forall_mem.mp RefOps_writes op (hL op h)) hr

theorem RefP_sub : ∀ op ∈ (RefOpsP : List (HloOp τ sig (Elt F))), op ∈ (RefOps : List (HloOp τ sig (Elt F))) := fun op h => by
  rw [RefOps_eq]; exact List.mem_append_left _ h

theorem RefM_sub : ∀ op ∈ (RefOpsM : List (HloOp τ sig (Elt F))), op ∈ (RefOps : List (HloOp τ sig (Elt F))) := fun op h => by
  rw [RefOps_eq]; exact List.mem_append_right _ (List.mem_append_left _ h)

end Kept

/-! ## The first two stretches -/

attribute [local irreducible] Host.gather Host.scatter concatenate shapeCast broadcastInDim

set_option maxRecDepth 65536 in
set_option maxHeartbeats 4000000 in
/-- After the first stretch the source rows' buffer holds the rows picked by the first id vector. -/
theorem RefP_v6 (W : Valuation τ sig (Elt Ideal)) :
    after (RefOpsP (F := Ideal)) W (Proc.devRef .tc main_v6)
      = pick (W (Proc.devRef .tc main_arg0)) (W (Proc.devRef .tc main_arg1)) := by
  after_results_simp
  <;> rfl

set_option maxRecDepth 65536 in
set_option maxHeartbeats 4000000 in
/-- After the first stretch the destination rows' buffer holds the rows picked by the second id vector. -/
theorem RefP_v13 (W : Valuation τ sig (Elt Ideal)) :
    after (RefOpsP (F := Ideal)) W (Proc.devRef .tc main_v13)
      = pick (W (Proc.devRef .tc main_arg0)) (W (Proc.devRef .tc main_arg2)) := by
  after_results_simp
  <;> rfl

set_option maxRecDepth 65536 in
set_option maxHeartbeats 8000000 in
/-- After the second stretch the interleaved buffer holds the updates computed from the two gathered row arrays. -/
theorem RefM_v47 (W : Valuation τ sig (Elt Ideal)) :
    after (RefOpsM (F := Ideal)) W (Proc.devRef .tc main_v47)
      = RefVals (W (Proc.devRef .tc main_v6)) (W (Proc.devRef .tc main_v13)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) := by
  after_results_simp
  <;> rfl

end Cert.RefSide

end
-- ==== Proof.RefTail.lean ====
/-
  The last-write-wins tail's fold as a function of what it reads.

  The tail is read in three parts: the node ids in the interleaved order; per node, the last position at which it
  occurs; and the selection of the row at that position, or of the node's old row. Each part's fold is its function
  of the buffers it reads, and the three composed are the tail's function of the interleaved updates and the arguments.
-/
import proofs.«120662_j70557722738855_2_alg».proof.Proof.RefTerms

noncomputable section

namespace Cert.RefSide

open Cert.ReferenceIdeal Cert.ReferenceIdeal.Gen Idealize.ShloMosaic Idealize.ShloMosaic.TcCoe Idealize.SL.Sem Idealize.ShloMosaic.StableHlo

section Parts
variable {F : FTy → Type} [FloatOps F]

/-- The third stretch in three parts: the interleaved ids; the last position per node; the selection. -/
abbrev RefOpsT1 : List (HloOp τ sig (Elt F)) :=
  [ unary main_arg2 main_v48 (broadcastInDim S100000x1 ![0] bcast_S100000_S100000x1_0 : (⟨S100000, .i32⟩ : BufTy).Contents (Elt F) → (⟨S100000x1, .i32⟩ : BufTy).Contents (Elt F)),
    unary main_arg1 main_v49 (broadcastInDim S100000x1 ![0] bcast_S100000_S100000x1_0 : (⟨S100000, .i32⟩ : BufTy).Contents (Elt F) → (⟨S100000x1, .i32⟩ : BufTy).Contents (Elt F)),
    binary main_v48 main_v49 main_v50 ((fun a b => concatenate S100000x2 1 [⟨S100000x1, a⟩, ⟨S100000x1, b⟩] concatenates_S100000x1_S100000x1_S100000x2_d1) : (⟨S100000x1, .i32⟩ : BufTy).Contents (Elt F) → (⟨S100000x1, .i32⟩ : BufTy).Contents (Elt F) → (⟨S100000x2, .i32⟩ : BufTy).Contents (Elt F)),
    reshape main_v50 main_v51 rfl shapeCasts_S100000x2_S200000 ]
abbrev RefOpsT2 : List (HloOp τ sig (Elt F)) :=
  [ nullary main_v52 (iotaInDim S200000 32 0),
    nullary main_c_3 (constantI S_ 32 2147483648#32),
    unary main_c_3 main_v53 (broadcastInDim S200000 ![] bcast_S_S200000 : (⟨S_, .i32⟩ : BufTy).Contents (Elt F) → (⟨S200000, .i32⟩ : BufTy).Contents (Elt F)),
    unary main_v51 main_v54 (broadcastInDim S200000x1 ![0] bcast_S200000_S200000x1_0 : (⟨S200000, .i32⟩ : BufTy).Contents (Elt F) → (⟨S200000x1, .i32⟩ : BufTy).Contents (Elt F)),
    ternary main_v53 main_v54 main_v52 main_v55 ((fun x i u => Host.scatter scatter_S200000_S200000x1_S200000_n_0_0_1 IntOp.maxsi x i u) : (⟨S200000, .i32⟩ : BufTy).Contents (Elt F) → (⟨S200000x1, .i32⟩ : BufTy).Contents (Elt F) → (⟨S200000, .i32⟩ : BufTy).Contents (Elt F) → (⟨S200000, .i32⟩ : BufTy).Contents (Elt F)) ]
abbrev RefOpsT3 : List (HloOp τ sig (Elt F)) :=
  [ nullary main_c_4 (constantI S_ 32 0#32),
    unary main_c_4 main_v56 (broadcastInDim S200000 ![] bcast_S_S200000 : (⟨S_, .i32⟩ : BufTy).Contents (Elt F) → (⟨S200000, .i32⟩ : BufTy).Contents (Elt F)),
    binary main_v55 main_v56 main_v57 (cmpi .sge : (⟨S200000, .i32⟩ : BufTy).Contents (Elt F) → (⟨S200000, .i32⟩ : BufTy).Contents (Elt F) → (⟨S200000, .i1⟩ : BufTy).Contents (Elt F)),
    nullary main_c_5 (constantI S_ 32 0#32),
    TRef.unary (.of main_c_5 : TRef sig ⟨S_, .i32⟩) main_call3.v0 id,
    TRef.unary main_call3.v0 main_call3.v1 (broadcastInDim S200000 ![] bcast_S_S200000),
    TRef.binary main_call3.v1 (.of main_v55 : TRef sig ⟨S200000, .i32⟩) main_call3.v2 maxsi,
    nullary main_c_6 (constantI S_ 32 0#32),
    unary main_c_6 main_v59 (broadcastInDim S200000 ![] bcast_S_S200000 : (⟨S_, .i32⟩ : BufTy).Contents (Elt F) → (⟨S200000, .i32⟩ : BufTy).Contents (Elt F)),
    binary main_v58 main_v59 main_v60 (cmpi .slt : (⟨S200000, .i32⟩ : BufTy).Contents (Elt F) → (⟨S200000, .i32⟩ : BufTy).Contents (Elt F) → (⟨S200000, .i1⟩ : BufTy).Contents (Elt F)),
    nullary main_c_7 (constantI S_ 32 200000#32),
    unary main_c_7 main_v61 (broadcastInDim S200000 ![] bcast_S_S200000 : (⟨S_, .i32⟩ : BufTy).Contents (Elt F) → (⟨S200000, .i32⟩ : BufTy).Contents (Elt F)),
    binary main_v58 main_v61 main_v62 (addi : (⟨S200000, .i32⟩ : BufTy).Contents (Elt F) → (⟨S200000, .i32⟩ : BufTy).Contents (Elt F) → (⟨S200000, .i32⟩ : BufTy).Contents (Elt F)),
    ternary main_v60 main_v62 main_v58 main_v63 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v63 main_v64 (broadcastInDim S200000x1 ![0] bcast_S200000_S200000x1_0 : (⟨S200000, .i32⟩ : BufTy).Contents (Elt F) → (⟨S200000x1, .i32⟩ : BufTy).Contents (Elt F)),
    binary main_v47 main_v64 main_v65 ((fun x i => Host.gather gather_S200000x128_S200000x1_S200000x128_1_0_n_n_0_1_1128 x i) : (⟨S200000x128, .f32⟩ : BufTy).Contents (Elt F) → (⟨S200000x1, .i32⟩ : BufTy).Contents (Elt F) → (⟨S200000x128, .f32⟩ : BufTy).Contents (Elt F)),
    unary main_v57 main_v66 (broadcastInDim S200000x1 ![0] bcast_S200000_S200000x1_0 : (⟨S200000, .i1⟩ : BufTy).Contents (Elt F) → (⟨S200000x1, .i1⟩ : BufTy).Contents (Elt F)),
    TRef.unary (.of main_v66 : TRef sig ⟨S200000x1, .i1⟩) main_call4.v0 (broadcastInDim S200000x128 ![0, 1] bcast_S200000x1_S200000x128_0_1),
    TRef.ternary main_call4.v0 (.of main_v65 : TRef sig ⟨S200000x128, .f32⟩) (.of main_arg0 : TRef sig ⟨S200000x128, .f32⟩) main_call4.v1 select ]
theorem RefOpsT_eq : (RefOpsT : List (HloOp τ sig (Elt F))) = RefOpsT1 ++ (RefOpsT2 ++ RefOpsT3) := rfl

end Parts

attribute [local irreducible] Host.gather Host.scatter concatenate shapeCast broadcastInDim

/-- Per node, the largest position at which it occurs in a vector of node ids (the least integer where it never does). -/
def RefLastOf (ids : (⟨S200000, .i32⟩ : BufTy).Contents (Elt Ideal)) : (⟨S200000, .i32⟩ : BufTy).Contents (Elt Ideal) :=
  Host.scatter scatter_S200000_S200000x1_S200000_n_0_0_1 IntOp.maxsi
    (broadcastInDim S200000 ![] bcast_S_S200000 (constantI S_ 32 2147483648#32))
    (broadcastInDim S200000x1 ![0] bcast_S200000_S200000x1_0 ids)
    (iotaInDim S200000 32 0)

/-- A position vector clamped below at zero. -/
def RefClipOf (last : (⟨S200000, .i32⟩ : BufTy).Contents (Elt Ideal)) : (⟨S200000, .i32⟩ : BufTy).Contents (Elt Ideal) :=
  maxsi (broadcastInDim S200000 ![] bcast_S_S200000 (constantI S_ 32 0#32)) last

/-- The selection: where a node has a last position, the row of `vals` there; elsewhere the node's old row. -/
def RefTailOf (last : (⟨S200000, .i32⟩ : BufTy).Contents (Elt Ideal)) (vals x0 : (⟨S200000x128, .f32⟩ : BufTy).Contents (Elt Ideal)) : (⟨S200000x128, .f32⟩ : BufTy).Contents (Elt Ideal) :=
  select
    (broadcastInDim S200000x128 ![0, 1] bcast_S200000x1_S200000x128_0_1
      (broadcastInDim S200000x1 ![0] bcast_S200000_S200000x1_0
        (cmpi .sge last (broadcastInDim S200000 ![] bcast_S_S200000 (constantI S_ 32 0#32)))))
    (Host.gather gather_S200000x128_S200000x1_S200000x128_1_0_n_n_0_1_1128 vals
      (broadcastInDim S200000x1 ![0] bcast_S200000_S200000x1_0
        (select (cmpi .slt (RefClipOf last) (broadcastInDim S200000 ![] bcast_S_S200000 (constantI S_ 32 0#32)))
          (addi (RefClipOf last) (broadcastInDim S200000 ![] bcast_S_S200000 (constantI S_ 32 200000#32)))
          (RefClipOf last))))
    x0

/-- The tail is the selection at the last positions of the interleaved ids. -/
theorem tail_eq (vals x0 : (⟨S200000x128, .f32⟩ : BufTy).Contents (Elt Ideal)) (x1 x2 : (⟨S100000, .i32⟩ : BufTy).Contents (Elt Ideal)) :
    tail vals x0 x1 x2 = RefTailOf (RefLastOf (RefIds x1 x2)) vals x0 := rfl

set_option maxRecDepth 65536 in
/-- After the first part the id buffer holds the interleaved ids. -/
theorem RefT1_v51 (W : Valuation τ sig (Elt Ideal)) :
    after (RefOpsT1 (F := Ideal)) W (Proc.devRef .tc main_v51) = RefIds (W (Proc.devRef .tc main_arg1)) (W (Proc.devRef .tc main_arg2)) := by
  after_results_simp
  <;> rfl

theorem RefT1_v47 (W : Valuation τ sig (Elt Ideal)) :
    after (RefOpsT1 (F := Ideal)) W (Proc.devRef .tc main_v47) = W (Proc.devRef .tc main_v47) := by
  after_results_simp

theorem RefT1_arg0 (W : Valuation τ sig (Elt Ideal)) :
    after (RefOpsT1 (F := Ideal)) W (Proc.devRef .tc main_arg0) = W (Proc.devRef .tc main_arg0) := by
  after_results_simp

set_option maxRecDepth 65536 in
/-- After the second part the position buffer holds each node's last position among the ids. -/
theorem RefT2_v55 (W : Valuation τ sig (Elt Ideal)) :
    after (RefOpsT2 (F := Ideal)) W (Proc.devRef .tc main_v55) = RefLastOf (W (Proc.devRef .tc main_v51)) := by
  after_results_simp
  <;> rfl

theorem RefT2_v47 (W : Valuation τ sig (Elt Ideal)) :
    after (RefOpsT2 (F := Ideal)) W (Proc.devRef .tc main_v47) = W (Proc.devRef .tc main_v47) := by
  after_results_simp

theorem RefT2_arg0 (W : Valuation τ sig (Elt Ideal)) :
    after (RefOpsT2 (F := Ideal)) W (Proc.devRef .tc main_arg0) = W (Proc.devRef .tc main_arg0) := by
  after_results_simp

set_option maxRecDepth 65536 in
/-- After the third part the result buffer holds the selection. -/
theorem RefT3_v67 (W : Valuation τ sig (Elt Ideal)) :
    after (RefOpsT3 (F := Ideal)) W (Proc.devRef .tc main_v67)
      = RefTailOf (W (Proc.devRef .tc main_v55)) (W (Proc.devRef .tc main_v47)) (W (Proc.devRef .tc main_arg0)) := by
  after_results_simp
  <;> rfl

/-- After the third stretch the result buffer holds the tail's function of the interleaved updates and the arguments. -/
theorem RefT_v67 (W : Valuation τ sig (Elt Ideal)) :
    after (RefOpsT (F := Ideal)) W (Proc.devRef .tc main_v67)
      = tail (W (Proc.devRef .tc main_v47)) (W (Proc.devRef .tc main_arg0)) (W (Proc.devRef .tc main_arg1)) (W (Proc.devRef .tc main_arg2)) := by
  rw [RefOpsT_eq, Cert.Lib.AfterAppend.after_append, Cert.Lib.AfterAppend.after_append, RefT3_v67, RefT2_v55, RefT2_v47,
    RefT2_arg0, RefT1_v51, RefT1_v47, RefT1_arg0, tail_eq]

end Cert.RefSide

end
-- ==== Proof.RefRead.lean ====
/-
  The reference's interleaved updates are the specification, entry by entry.

  A product with a concatenated left operand is, at the exact values, the sum over the whole contraction axis of the
  concatenated row times the matrix's column; split along the pieces' consecutive ranges it is the sum of the pieces'
  own partial products with the matching row blocks of the matrix — four blocks (128, 128, 172, 100 rows) for the
  message network, two (128, 128) for the update network. A bias vector broadcast to every row reads the vector at the
  column; the clamp at zero is a maximum; the interleaved array's row `r` is row `r / 2` of the destination's updates
  when `r` is even and of the source's when `r` is odd.
-/
import proofs.«120662_j70557722738855_2_alg».proof.Proof.RefTerms
import proofs.«120662_j70557722738855_2_alg».proof.Proof.Mlp
import proofs.«120662_j70557722738855_2_alg».proof.Proof.LibPlainDot
import proofs.«120662_j70557722738855_2_alg».proof.Proof.LibRowBroadcasts
import proofs.«120662_j70557722738855_2_alg».proof.Proof.LibInterleave
import Idealize.ShloMosaic.Lib.ValueIdx
import Idealize.ShloMosaic.Lib.Pipeline.Value

noncomputable section

namespace Cert.RefSide

open Cert.ReferenceIdeal Cert.ReferenceIdeal.Gen Idealize.ShloMosaic Idealize.ShloMosaic.ValueIdx Cert.Mlp
open scoped BigOperators

theorem rd128 : dot_S100000x128_S128x128_S100000x128_1_0_0_1_n_n = Cert.Lib.PlainDot.dims dot_S100000x128_S128x128_S100000x128_1_0_0_1_n_n_wf := rfl
theorem rd528 : dot_S100000x528_S528x128_S100000x128_1_0_0_1_n_n = Cert.Lib.PlainDot.dims dot_S100000x528_S528x128_S100000x128_1_0_0_1_n_n_wf := rfl
theorem rd256 : dot_S100000x256_S256x128_S100000x128_1_0_0_1_n_n = Cert.Lib.PlainDot.dims dot_S100000x256_S256x128_S100000x128_1_0_0_1_n_n_wf := rfl

/-- A bias vector broadcast to every row reads, at `(p, q)`, the vector at `q`. -/
theorem RefBias_apply (b : (⟨S128, .f32⟩ : BufTy).Contents (Elt Ideal)) (p : Fin 100000) (q : Fin 128) : RefBias b (ix2 p q) = b (ix1 q) := by
  unfold RefBias
  refine (Cert.Lib.Rows.dimRow_apply _ _ p q).trans ?_
  refine broadcastInDim_apply _ _ b (ix2 (0 : Fin 1) q) (ix1 q) fun ax => ?_
  match ax with
  | ⟨0, _⟩ => show q.val = if (128 : Nat) = 1 then 0 else q.val; rw [if_neg (by decide)]

/-- The clamp reads, at an index, the maximum with the float zero. -/
theorem RefRelu_apply (x : (⟨S100000x128, .f32⟩ : BufTy).Contents (Elt Ideal)) (i : S100000x128.Idx) : RefRelu x i = max (x i) z := rfl

/-- THE MESSAGE NETWORK'S FIRST PRODUCT at `(p, q)`: the concatenated row times the matrix's column is the four
    pieces' partial products with the matching row blocks, summed left to right. -/
theorem cat4_dot_apply (S D : (⟨S100000x128, .f32⟩ : BufTy).Contents (Elt Ideal)) (EF : (⟨S100000x172, .f32⟩ : BufTy).Contents (Elt Ideal)) (TF : (⟨S100000x100, .f32⟩ : BufTy).Contents (Elt Ideal))
    (W1 : (⟨S528x128, .f32⟩ : BufTy).Contents (Elt Ideal)) (p : Fin 100000) (q : Fin 128) :
    Host.dotGeneral (F := Ideal) (φ₁ := .f32) (φ₂ := .f32) dot_S100000x528_S528x128_S100000x128_1_0_0_1_n_n none
        (concatenate S100000x528 1 [⟨S100000x128, S⟩, ⟨S100000x128, D⟩, ⟨S100000x172, EF⟩, ⟨S100000x100, TF⟩]
          concatenates_S100000x128_S100000x128_S100000x172_S100000x100_S100000x528_d1) W1 (ix2 p q)
      = (((∑ k : Fin 128, S (ix2 p k) * blk W1 0 128 (by omega) k q) + ∑ k : Fin 128, D (ix2 p k) * blk W1 128 128 (by omega) k q)
          + ∑ k : Fin 172, EF (ix2 p k) * blk W1 256 172 (by omega) k q) + ∑ k : Fin 100, TF (ix2 p k) * blk W1 428 100 (by omega) k q := by
  rw [rd528]
  refine (Cert.Lib.PlainDot.dotGeneral_apply _ none _ W1 p q).trans ?_
  refine (sum_split4 128 128 172 100 _).trans ?_
  refine congrArg₂ (· + ·) (congrArg₂ (· + ·) (congrArg₂ (· + ·) ?_ ?_) ?_) ?_
  · refine Finset.sum_congr rfl fun k _ => ?_
    have hk := k.isLt
    refine congrArg₂ (· * ·) ?_ (congrArg W1 (congrArg (fun a => ix2 a q) (Fin.ext (Nat.zero_add k.val).symm)))
    exact concatenate_apply_piece (t := S100000x528) (1 : Fin 2) _ _ _ 0 (by show (0 : Nat) < 4; omega) S100000x128 S rfl rfl 0 rfl (ix2 p k)
      (fun ax hax => by match ax with | ⟨0, _⟩ => rfl | ⟨1, _⟩ => exact absurd rfl hax) (by show 0 + k.val = k.val; omega)
  · refine Finset.sum_congr rfl fun k _ => ?_
    have hk := k.isLt
    refine congrArg₂ (· * ·) ?_ rfl
    exact concatenate_apply_piece (t := S100000x528) (1 : Fin 2) _ _ _ 1 (by show (1 : Nat) < 4; omega) S100000x128 D rfl rfl 128 rfl (ix2 p k)
      (fun ax hax => by match ax with | ⟨0, _⟩ => rfl | ⟨1, _⟩ => exact absurd rfl hax) rfl
  · refine Finset.sum_congr rfl fun k _ => ?_
    have hk := k.isLt
    refine congrArg₂ (· * ·) ?_ rfl
    exact concatenate_apply_piece (t := S100000x528) (1 : Fin 2) _ _ _ 2 (by show (2 : Nat) < 4; omega) S100000x172 EF rfl rfl 256 rfl (ix2 p k)
      (fun ax hax => by match ax with | ⟨0, _⟩ => rfl | ⟨1, _⟩ => exact absurd rfl hax) rfl
  · refine Finset.sum_congr rfl fun k _ => ?_
    have hk := k.isLt
    refine congrArg₂ (· * ·) ?_ rfl
    exact concatenate_apply_piece (t := S100000x528) (1 : Fin 2) _ _ _ 3 (by show (3 : Nat) < 4; omega) S100000x100 TF rfl rfl 428 rfl (ix2 p k)
      (fun ax hax => by match ax with | ⟨0, _⟩ => rfl | ⟨1, _⟩ => exact absurd rfl hax) rfl

/-- THE UPDATE NETWORK'S FIRST PRODUCT at `(p, q)`: the two pieces' partial products with the two row blocks. -/
theorem cat2_dot_apply (X g : (⟨S100000x128, .f32⟩ : BufTy).Contents (Elt Ideal)) (U1 : (⟨S256x128, .f32⟩ : BufTy).Contents (Elt Ideal)) (p : Fin 100000) (q : Fin 128) :
    Host.dotGeneral (F := Ideal) (φ₁ := .f32) (φ₂ := .f32) dot_S100000x256_S256x128_S100000x128_1_0_0_1_n_n none
        (concatenate S100000x256 1 [⟨S100000x128, X⟩, ⟨S100000x128, g⟩] concatenates_S100000x128_S100000x128_S100000x256_d1) U1 (ix2 p q)
      = (∑ k : Fin 128, X (ix2 p k) * blk U1 0 128 (by omega) k q) + ∑ k : Fin 128, g (ix2 p k) * blk U1 128 128 (by omega) k q := by
  rw [rd256]
  refine (Cert.Lib.PlainDot.dotGeneral_apply _ none _ U1 p q).trans ?_
  refine (sum_split2 128 128 _).trans ?_
  refine congrArg₂ (· + ·) ?_ ?_
  · refine Finset.sum_congr rfl fun k _ => ?_
    have hk := k.isLt
    refine congrArg₂ (· * ·) ?_ (congrArg U1 (congrArg (fun a => ix2 a q) (Fin.ext (Nat.zero_add k.val).symm)))
    exact concatenate_apply_piece (t := S100000x256) (1 : Fin 2) _ _ _ 0 (by show (0 : Nat) < 2; omega) S100000x128 X rfl rfl 0 rfl (ix2 p k)
      (fun ax hax => by match ax with | ⟨0, _⟩ => rfl | ⟨1, _⟩ => exact absurd rfl hax) (by show 0 + k.val = k.val; omega)
  · refine Finset.sum_congr rfl fun k _ => ?_
    have hk := k.isLt
    refine congrArg₂ (· * ·) ?_ rfl
    exact concatenate_apply_piece (t := S100000x256) (1 : Fin 2) _ _ _ 1 (by show (1 : Nat) < 2; omega) S100000x128 g rfl rfl 128 rfl (ix2 p k)
      (fun ax hax => by match ax with | ⟨0, _⟩ => rfl | ⟨1, _⟩ => exact absurd rfl hax) rfl

/-- The message rows at `(p, q)`. -/
theorem RefMsg_apply (S D : (⟨S100000x128, .f32⟩ : BufTy).Contents (Elt Ideal)) (EF : (⟨S100000x172, .f32⟩ : BufTy).Contents (Elt Ideal)) (TF : (⟨S100000x100, .f32⟩ : BufTy).Contents (Elt Ideal))
    (W1 : (⟨S528x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (p : Fin 100000) (q : Fin 128) :
    RefMsg S D EF TF W1 b1 W2 b2 (ix2 p q) = message S D EF TF W1 b1 W2 b2 p q := by
  unfold RefMsg message lin hid1
  rw [rd128]
  simp only [addf_apply, Cert.Lib.PlainDot.dotGeneral_apply, RefRelu_apply, cat4_dot_apply, RefBias_apply]

/-- The update rows at `(p, q)`, for message rows that read as `g`. -/
theorem RefUpd_apply (X G : (⟨S100000x128, .f32⟩ : BufTy).Contents (Elt Ideal)) (U1 : (⟨S256x128, .f32⟩ : BufTy).Contents (Elt Ideal)) (ub1 : (⟨S128, .f32⟩ : BufTy).Contents (Elt Ideal))
    (U2 : (⟨S128x128, .f32⟩ : BufTy).Contents (Elt Ideal)) (ub2 : (⟨S128, .f32⟩ : BufTy).Contents (Elt Ideal)) (p : Fin 100000) (q : Fin 128) (g : Fin 128 → EReal)
    (hg : ∀ k, G (ix2 p k) = g k) :
    RefUpd X G U1 ub1 U2 ub2 (ix2 p q) = update X g U1 ub1 U2 ub2 p q := by
  unfold RefUpd update lin hid2
  rw [rd128]
  simp only [addf_apply, Cert.Lib.PlainDot.dotGeneral_apply, RefRelu_apply, cat2_dot_apply, RefBias_apply, hg]

/-- The interleaved array at `(r, q)`. -/
theorem RefWeave_apply (a b : (⟨S100000x128, .f32⟩ : BufTy).Contents (Elt Ideal)) (r : Fin 200000) (q : Fin 128) :
    RefWeave a b (ix2 r q) = if r.val % 2 = 0 then a (ix2 ⟨r.val / 2, by have := r.isLt; omega⟩ q)
      else b (ix2 ⟨r.val / 2, by have := r.isLt; omega⟩ q) := by
  unfold RefWeave
  rw [Cert.Lib.Interleave.stack_apply _ _ _ _ (by norm_num : (200000 : Nat) = 2 * 100000) r q]
  split
  · exact Cert.Lib.Interleave.dimMid_apply a _ _ q
  · exact Cert.Lib.Interleave.dimMid_apply b _ _ q

/-- THE REFERENCE'S INTERLEAVED UPDATES ARE THE SPECIFICATION. -/
theorem RefVals_eq (S D : (⟨S100000x128, .f32⟩ : BufTy).Contents (Elt Ideal)) (EF : (⟨S100000x172, .f32⟩ : BufTy).Contents (Elt Ideal)) (TF : (⟨S100000x100, .f32⟩ : BufTy).Contents (Elt Ideal))
    (W1 : (⟨S528x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (U1 : (⟨S256x128, .f32⟩ : BufTy).Contents (Elt Ideal)) (ub1 : (⟨S128, .f32⟩ : BufTy).Contents (Elt Ideal)) (U2 : (⟨S128x128, .f32⟩ : BufTy).Contents (Elt Ideal)) (ub2 : (⟨S128, .f32⟩ : BufTy).Contents (Elt Ideal)) :
    RefVals S D EF TF W1 b1 W2 b2 U1 ub1 U2 ub2 = vals S D EF TF W1 b1 W2 b2 U1 ub1 U2 ub2 := by
  funext i
  obtain ⟨r, q, rfl⟩ : ∃ (r : Fin 200000) (q : Fin 128), i = ix2 r q := ⟨i 0, i 1, eq_ix2 i⟩
  unfold RefVals
  rw [RefWeave_apply]
  show _ = if r.val % 2 = 0 then _ else _
  split
  · exact RefUpd_apply D _ U1 ub1 U2 ub2 _ q _ fun k => RefMsg_apply S D EF TF W1 b1 W2 b2 _ k
  · exact RefUpd_apply S _ U1 ub1 U2 ub2 _ q _ fun k => RefMsg_apply S D EF TF W1 b1 W2 b2 _ k

end Cert.RefSide

end
-- ==== Proof.RefSide.lean ====
/-
  The reference side: what the reference program leaves in memory.

  From any memory with zero counters, every weakly fair execution of the reference program terminates; the result
  buffer then holds the last-write-wins tail applied to the per-edge updates — the specification's arithmetic on the
  rows of the node table picked by the two id vectors and on the parameters — and every argument buffer holds what it
  held at launch. The line's fold is read stretch by stretch: the gathers, the updates, the tail; the updates'
  array is then the specification's, entry by entry.
-/
import proofs.«120662_j70557722738855_2_alg».proof.Proof.RefStretch
import proofs.«120662_j70557722738855_2_alg».proof.Proof.RefTail
import proofs.«120662_j70557722738855_2_alg».proof.Proof.RefRead

noncomputable section

namespace Cert.RefSide

open Cert.ReferenceIdeal Cert.ReferenceIdeal.Gen Idealize.ShloMosaic Idealize.ShloMosaic.TcCoe Idealize.SL.Sem Idealize.ShloMosaic.StableHlo

/-- Through the whole line an argument buffer keeps its contents. -/
theorem Ref_arg_keep (V : Valuation τ sig (Elt Ideal)) {r : Ref sig .tc} (hr : r ∉ RefWritten) :
    after (RefOps (F := Ideal)) V (Proc.devRef .tc r) = V (Proc.devRef .tc r) :=
  Ref_keep RefOps (fun _ h => h) V hr

/-- After the whole line the result buffer holds the tail of the program's interleaved updates of the picked rows. -/
theorem Ref_v67 (V : Valuation τ sig (Elt Ideal)) :
    after (RefOps (F := Ideal)) V (Proc.devRef .tc main_v67)
      = tail (RefVals (pick (V (Proc.devRef .tc main_arg0)) (V (Proc.devRef .tc main_arg1))) (pick (V (Proc.devRef .tc main_arg0)) (V (Proc.devRef .tc main_arg2))) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)))
          (V (Proc.devRef .tc main_arg0)) (V (Proc.devRef .tc main_arg1)) (V (Proc.devRef .tc main_arg2)) := by
  have hP : ∀ r : Ref sig .tc, r ∉ RefWritten →
      after (RefOpsP (F := Ideal)) V (Proc.devRef .tc r) = V (Proc.devRef .tc r) :=
    fun r hr => Ref_keep RefOpsP RefP_sub V hr
  have hM : ∀ r : Ref sig .tc, r ∉ RefWritten →
      after (RefOpsM (F := Ideal)) (after RefOpsP V) (Proc.devRef .tc r) = after RefOpsP V (Proc.devRef .tc r) :=
    fun r hr => Ref_keep RefOpsM RefM_sub _ hr
  rw [RefOps_eq, Cert.Lib.AfterAppend.after_append, Cert.Lib.AfterAppend.after_append, RefT_v67, RefM_v47,
    hM main_arg0 (by decide), hM main_arg1 (by decide), hM main_arg2 (by decide), RefP_v6, RefP_v13,
    hP main_arg0 (by decide), hP main_arg1 (by decide), hP main_arg2 (by decide), hP main_arg3 (by decide), hP main_arg4 (by decide), hP main_arg5 (by decide), hP main_arg6 (by decide), hP main_arg7 (by decide), hP main_arg8 (by decide), hP main_arg9 (by decide), hP main_arg10 (by decide), hP main_arg11 (by decide), hP main_arg12 (by decide)]

/-- The reference's run: the result is the tail of the specification's updates; the arguments are kept. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v67)
          = tail (Cert.Mlp.vals (pick (m ((c.tc : Thread nD τ).loc main_arg0)) (m ((c.tc : Thread nD τ).loc main_arg1))) (pick (m ((c.tc : Thread nD τ).loc main_arg0)) (m ((c.tc : Thread nD τ).loc main_arg2)))
              (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
            (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun r h c =>
    ⟨(h c main_v67).trans ((Ref_v67 (launchContents m c)).trans (congrArg (fun v => tail v _ _ _) (RefVals_eq _ _ _ _ _ _ _ _ _ _ _ _))),
      (h c main_arg0).trans (Ref_arg_keep (launchContents m c) (by decide)),
      (h c main_arg1).trans (Ref_arg_keep (launchContents m c) (by decide)),
      (h c main_arg2).trans (Ref_arg_keep (launchContents m c) (by decide)),
      (h c main_arg3).trans (Ref_arg_keep (launchContents m c) (by decide)),
      (h c main_arg4).trans (Ref_arg_keep (launchContents m c) (by decide)),
      (h c main_arg5).trans (Ref_arg_keep (launchContents m c) (by decide)),
      (h c main_arg6).trans (Ref_arg_keep (launchContents m c) (by decide)),
      (h c main_arg7).trans (Ref_arg_keep (launchContents m c) (by decide)),
      (h c main_arg8).trans (Ref_arg_keep (launchContents m c) (by decide)),
      (h c main_arg9).trans (Ref_arg_keep (launchContents m c) (by decide)),
      (h c main_arg10).trans (Ref_arg_keep (launchContents m c) (by decide)),
      (h c main_arg11).trans (Ref_arg_keep (launchContents m c) (by decide)),
      (h c main_arg12).trans (Ref_arg_keep (launchContents m c) (by decide))⟩)
    (Ref_run_main m ρ)

end Cert.RefSide

end
-- ==== Proof.lean ====
/-
  The certificate of the graph message-passing layer: the tiled kernel against its plain reference.

  Both programs gather the source and destination rows of each of 100000 edges from a 200000-row node table, run a
  two-layer network on the concatenated endpoint rows, edge features and time features to get the edge's message,
  run a second two-layer network on each endpoint row joined with the message, interleave the two updates (row 2e the
  destination's, row 2e + 1 the source's), and write them back to the node table where the last write to a node wins.
  The kernel tiles the edges in 25 blocks of 4000 and, instead of multiplying a concatenated row by a whole weight
  matrix, adds the products of the row's parts with the matching row blocks of the matrix; it rounds its matrix
  operands to a narrower float format first.

  On the extended reals the rounding is the identity and a sum over a contraction axis is the sum of the sums over its
  consecutive blocks — a law of any commutative additive monoid, needing no finiteness — so both programs compute
  `Mlp.vals` of the same gathered rows and arguments, and both apply the same last-write-wins selection to it.
  The kernel's result array is read off its frame run block by block (`KBlocks.final`), its operands off the host
  operations before the region (`KSide.V_…`), its result off those after it (`KSide.tail_eq`); the reference's run is
  read in three stretches (`RefSide.run`). The idealization rewrote nothing, so `preserves` is trivial.
-/
import proofs.«120662_j70557722738855_2_alg».proof.Defs
import proofs.«120662_j70557722738855_2_alg».proof.Proof.Gen.Kernel
import proofs.«120662_j70557722738855_2_alg».proof.Proof.Gen.Kernel.Frame
import proofs.«120662_j70557722738855_2_alg».proof.Proof.Gen.KernelIdeal
import proofs.«120662_j70557722738855_2_alg».proof.Proof.Gen.KernelIdeal.Frame
import proofs.«120662_j70557722738855_2_alg».proof.Proof.Gen.ReferenceIdeal
import proofs.«120662_j70557722738855_2_alg».proof.Proof.Gen.Pre_finite_inputs
import proofs.«120662_j70557722738855_2_alg».proof.Proof.KRun
import proofs.«120662_j70557722738855_2_alg».proof.Proof.RefSide
import Idealize.ShloMosaic.Adequacy
import Idealize.ShloMosaic.Init

set_option maxRecDepth 16384

noncomputable section

namespace Cert.Proof

open Idealize.ShloMosaic Idealize.SL.Sem

/-- The gathered rows are the same function in both programs' vocabularies. -/
theorem pick_eq (x0 : (⟨Cert.KernelIdeal.S200000x128, .f32⟩ : BufTy).Contents (Elt Ideal))
    (ids : (⟨Cert.KernelIdeal.S100000, .i32⟩ : BufTy).Contents (Elt Ideal)) :
    Cert.RefSide.pick x0 ids = Cert.KSide.pick x0 ids := rfl

attribute [local irreducible] Host.gather Host.scatter in
/-- The last-write-wins selection is the same function in both programs' vocabularies. -/
theorem tail_eq (vals x0 : (⟨Cert.KernelIdeal.S200000x128, .f32⟩ : BufTy).Contents (Elt Ideal))
    (x1 x2 : (⟨Cert.KernelIdeal.S100000, .i32⟩ : BufTy).Contents (Elt Ideal)) :
    Cert.RefSide.tail vals x0 x1 x2 = Cert.KSide.tail vals x0 x1 x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefSide.run m ρ)

/-- The idealization pass rewrote no operation. -/
theorem preserves : Cert.preserves_Kernel_KernelIdeal := trivial

/-- From memories that agree on the arguments both idealized programs end with the selection of `Mlp.vals`. -/
theorem algebraic : Cert.algebraic_KernelIdeal_ReferenceIdeal := by
  intro m ρ m' ρ' _ hagree
  refine ⟨_, Cert.KRun.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  rw [pick_eq, pick_eq]
  exact tail_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
